-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v88)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S2x800000 : Shape := ⟨2, ![2, 800000]⟩
abbrev S96x96 : Shape := ⟨2, ![96, 96]⟩
abbrev S96 : Shape := ⟨1, ![96]⟩
abbrev S96x4 : Shape := ⟨2, ![96, 4]⟩
abbrev S4 : Shape := ⟨1, ![4]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S96x96 : S_.BroadcastsInDim S96x96 (![] : Fin 0 → Fin S96x96.rank)
  reducesTo_S96x96_S_d0_1 : S96x96.ReducesTo [0, 1] S_
  bcast_S_S96 : S_.BroadcastsInDim S96 (![] : Fin 0 → Fin S96.rank)
  reducesTo_S96_S_d0 : S96.ReducesTo [0] S_
  bcast_S_S96x4 : S_.BroadcastsInDim S96x4 (![] : Fin 0 → Fin S96x4.rank)
  reducesTo_S96x4_S_d0_1 : S96x4.ReducesTo [0, 1] S_
  bcast_S_S4 : S_.BroadcastsInDim S4 (![] : Fin 0 → Fin S4.rank)
  reducesTo_S4_S_d0 : S4.ReducesTo [0] S_

variable [Facts]

def fn_part3 {F : FTy → Type} [FloatOps F] (main_v48 : IVec S_ 1) (main_v49 : FVec F S4 .f32) (main_v50 : FVec F S4 .f32) : IVec S_ 1 :=
  let main_v51 : IVec S4 1 := cmpf .olt main_v49 main_v50
  let main_c_19 : IVec S_ 1 := constantI S_ 1 1#1
  let main_v52 : IVec S_ 1 := (fun x v => Host.reduce IntOp.andi x v reducesTo_S4_S_d0 h_S_) main_v51 main_c_19
  let main_v53 : IVec S_ 1 := andi main_v48 main_v52
  main_v53

def fn_part2 {F : FTy → Type} [FloatOps F] (main_arg8 : FVec F S96x96 .f32) (main_arg9 : FVec F S96 .f32) (main_arg10 : FVec F S96x4 .f32) (main_arg11 : FVec F S4 .f32) (main_v33 : IVec S_ 1) : IVec S_ 1 :=
  let main_v34 : FVec F S96x96 .f32 := Host.absf main_arg8
  let main_cst_12 : FVec F S_ .f32 := constant S_ .f32 0x7F800000#32
  let main_v35 : FVec F S96x96 .f32 := broadcastInDim S96x96 ![] bcast_S_S96x96 main_cst_12
  let main_v36 : IVec S96x96 1 := cmpf .olt main_v34 main_v35
  let main_c_13 : IVec S_ 1 := constantI S_ 1 1#1
  let main_v37 : IVec S_ 1 := (fun x v => Host.reduce IntOp.andi x v reducesTo_S96x96_S_d0_1 h_S_) main_v36 main_c_13
  let main_v38 : IVec S_ 1 := andi main_v33 main_v37
  let main_v39 : FVec F S96 .f32 := Host.absf main_arg9
  let main_cst_14 : FVec F S_ .f32 := constant S_ .f32 0x7F800000#32
  let main_v40 : FVec F S96 .f32 := broadcastInDim S96 ![] bcast_S_S96 main_cst_14
  let main_v41 : IVec S96 1 := cmpf .olt main_v39 main_v40
  let main_c_15 : IVec S_ 1 := constantI S_ 1 1#1
  let main_v42 : IVec S_ 1 := (fun x v => Host.reduce IntOp.andi x v reducesTo_S96_S_d0 h_S_) main_v41 main_c_15
  let main_v43 : IVec S_ 1 := andi main_v38 main_v42
  let main_v44 : FVec F S96x4 .f32 := Host.absf main_arg10
  let main_cst_16 : FVec F S_ .f32 := constant S_ .f32 0x7F800000#32
  let main_v45 : FVec F S96x4 .f32 := broadcastInDim S96x4 ![] bcast_S_S96x4 main_cst_16
  let main_v46 : IVec S96x4 1 := cmpf .olt main_v44 main_v45
  let main_c_17 : IVec S_ 1 := constantI S_ 1 1#1
  let main_v47 : IVec S_ 1 := (fun x v => Host.reduce IntOp.andi x v reducesTo_S96x4_S_d0_1 h_S_) main_v46 main_c_17
  let main_v48 : IVec S_ 1 := andi main_v43 main_v47
  let main_v49 : FVec F S4 .f32 := Host.absf main_arg11
  let main_cst_18 : FVec F S_ .f32 := constant S_ .f32 0x7F800000#32
  let main_v50 : FVec F S4 .f32 := broadcastInDim S4 ![] bcast_S_S4 main_cst_18
  fn_part3 (F := F) main_v48 main_v49 main_v50

def fn_part1 {F : FTy → Type} [FloatOps F] (main_arg5 : FVec F S96 .f32) (main_arg6 : FVec F S96x96 .f32) (main_arg7 : FVec F S96 .f32) (main_arg8 : FVec F S96x96 .f32) (main_arg9 : FVec F S96 .f32) (main_arg10 : FVec F S96x4 .f32) (main_arg11 : FVec F S4 .f32) (main_v13 : IVec S_ 1) (main_v16 : IVec S96x96 1) : IVec S_ 1 :=
  let main_c_5 : IVec S_ 1 := constantI S_ 1 1#1
  let main_v17 : IVec S_ 1 := (fun x v => Host.reduce IntOp.andi x v reducesTo_S96x96_S_d0_1 h_S_) main_v16 main_c_5
  let main_v18 : IVec S_ 1 := andi main_v13 main_v17
  let main_v19 : FVec F S96 .f32 := Host.absf main_arg5
  let main_cst_6 : FVec F S_ .f32 := constant S_ .f32 0x7F800000#32
  let main_v20 : FVec F S96 .f32 := broadcastInDim S96 ![] bcast_S_S96 main_cst_6
  let main_v21 : IVec S96 1 := cmpf .olt main_v19 main_v20
  let main_c_7 : IVec S_ 1 := constantI S_ 1 1#1
  let main_v22 : IVec S_ 1 := (fun x v => Host.reduce IntOp.andi x v reducesTo_S96_S_d0 h_S_) main_v21 main_c_7
  let main_v23 : IVec S_ 1 := andi main_v18 main_v22
  let main_v24 : FVec F S96x96 .f32 := Host.absf main_arg6
  let main_cst_8 : FVec F S_ .f32 := constant S_ .f32 0x7F800000#32
  let main_v25 : FVec F S96x96 .f32 := broadcastInDim S96x96 ![] bcast_S_S96x96 main_cst_8
  let main_v26 : IVec S96x96 1 := cmpf .olt main_v24 main_v25
  let main_c_9 : IVec S_ 1 := constantI S_ 1 1#1
  let main_v27 : IVec S_ 1 := (fun x v => Host.reduce IntOp.andi x v reducesTo_S96x96_S_d0_1 h_S_) main_v26 main_c_9
  let main_v28 : IVec S_ 1 := andi main_v23 main_v27
  let main_v29 : FVec F S96 .f32 := Host.absf main_arg7
  let main_cst_10 : FVec F S_ .f32 := constant S_ .f32 0x7F800000#32
  let main_v30 : FVec F S96 .f32 := broadcastInDim S96 ![] bcast_S_S96 main_cst_10
  let main_v31 : IVec S96 1 := cmpf .olt main_v29 main_v30
  let main_c_11 : IVec S_ 1 := constantI S_ 1 1#1
  let main_v32 : IVec S_ 1 := (fun x v => Host.reduce IntOp.andi x v reducesTo_S96_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x96 .f32) (main_arg1 : IVec S2x800000 32) (main_arg2 : FVec F S96x96 .f32) (main_arg3 : FVec F S96 .f32) (main_arg4 : FVec F S96x96 .f32) (main_arg5 : FVec F S96 .f32) (main_arg6 : FVec F S96x96 .f32) (main_arg7 : FVec F S96 .f32) (main_arg8 : FVec F S96x96 .f32) (main_arg9 : FVec F S96 .f32) (main_arg10 : FVec F S96x4 .f32) (main_arg11 : FVec F S4 .f32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S96x96 .f32 := Host.absf main_arg2
  let main_cst_0 : FVec F S_ .f32 := constant S_ .f32 0x7F800000#32
  let main_v5 : FVec F S96x96 .f32 := broadcastInDim S96x96 ![] bcast_S_S96x96 main_cst_0
  let main_v6 : IVec S96x96 1 := cmpf .olt main_v4 main_v5
  let main_c_1 : IVec S_ 1 := constantI S_ 1 1#1
  let main_v7 : IVec S_ 1 := (fun x v => Host.reduce IntOp.andi x v reducesTo_S96x96_S_d0_1 h_S_) main_v6 main_c_1
  let main_v8 : IVec S_ 1 := andi main_v3 main_v7
  let main_v9 : FVec F S96 .f32 := Host.absf main_arg3
  let main_cst_2 : FVec F S_ .f32 := constant S_ .f32 0x7F800000#32
  let main_v10 : FVec F S96 .f32 := broadcastInDim S96 ![] bcast_S_S96 main_cst_2
  let main_v11 : IVec S96 1 := cmpf .olt main_v9 main_v10
  let main_c_3 : IVec S_ 1 := constantI S_ 1 1#1
  let main_v12 : IVec S_ 1 := (fun x v => Host.reduce IntOp.andi x v reducesTo_S96_S_d0 h_S_) main_v11 main_c_3
  let main_v13 : IVec S_ 1 := andi main_v8 main_v12
  let main_v14 : FVec F S96x96 .f32 := Host.absf main_arg4
  let main_cst_4 : FVec F S_ .f32 := constant S_ .f32 0x7F800000#32
  let main_v15 : FVec F S96x96 .f32 := broadcastInDim S96x96 ![] bcast_S_S96x96 main_cst_4
  let main_v16 : IVec S96x96 1 := cmpf .olt main_v14 main_v15
  fn_part1 (F := F) main_arg5 main_arg6 main_arg7 main_arg8 main_arg9 main_arg10 main_arg11 main_v13 main_v16
-- ==== Kernel.lean ====
abbrev S50000x96 : Shape := ⟨2, ![50000, 96]⟩
abbrev S2x800000 : Shape := ⟨2, ![2, 800000]⟩
abbrev S96x96 : Shape := ⟨2, ![96, 96]⟩
abbrev S96 : Shape := ⟨1, ![96]⟩
abbrev S96x4 : Shape := ⟨2, ![96, 4]⟩
abbrev S4 : Shape := ⟨1, ![4]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x96 : Shape := ⟨2, ![5000, 96]⟩
abbrev S850000x96 : Shape := ⟨2, ![850000, 96]⟩
abbrev S1x96 : Shape := ⟨2, ![1, 96]⟩
abbrev S1x4 : Shape := ⟨2, ![1, 4]⟩
abbrev S50000x4 : Shape := ⟨2, ![50000, 4]⟩
abbrev S5000x4 : Shape := ⟨2, ![5000, 4]⟩
abbrev S5000 : Shape := ⟨1, ![5000]⟩
abbrev S5000x1 : Shape := ⟨2, ![5000, 1]⟩

abbrev nBuf : Space → Nat
  | .hbm => 119
  | .vmem => 30
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S96x96, .f32⟩
  | .hbm, ⟨3, _⟩ => ⟨S96, .f32⟩
  | .hbm, ⟨4, _⟩ => ⟨S96x96, .f32⟩
  | .hbm, ⟨5, _⟩ => ⟨S96, .f32⟩
  | .hbm, ⟨6, _⟩ => ⟨S96x96, .f32⟩
  | .hbm, ⟨7, _⟩ => ⟨S96, .f32⟩
  | .hbm, ⟨8, _⟩ => ⟨S96x96, .f32⟩
  | .hbm, ⟨9, _⟩ => ⟨S96, .f32⟩
  | .hbm, ⟨10, _⟩ => ⟨S96x4, .f32⟩
  | .hbm, ⟨11, _⟩ => ⟨S4, .f32⟩
  | .hbm, ⟨12, _⟩ => ⟨S50000, .i32⟩
  | .hbm, ⟨13, _⟩ => ⟨S1x800000, .i32⟩
  | .hbm, ⟨14, _⟩ => ⟨S800000, .i32⟩
  | .hbm, ⟨15, _⟩ => ⟨S850000, .i32⟩
  | .hbm, ⟨16, _⟩ => ⟨S1x800000, .i32⟩
  | .hbm, ⟨17, _⟩ => ⟨S800000, .i32⟩
  | .hbm, ⟨18, _⟩ => ⟨S850000, .i32⟩
  | .hbm, ⟨19, _⟩ => ⟨S_, .f32⟩
  | .hbm, ⟨20, _⟩ => ⟨S850000, .f32⟩
  | .hbm, ⟨21, _⟩ => ⟨S_, .f32⟩
  | .hbm, ⟨22, _⟩ => ⟨S50000, .f32⟩
  | .hbm, ⟨23, _⟩ => ⟨S850000x1, .i32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S850000, .i32⟩
  | .hbm, ⟨28, _⟩ => ⟨S850000, .i1⟩
  | .hbm, ⟨29, _⟩ => ⟨S_, .i32⟩
  | .hbm, ⟨30, _⟩ => ⟨S850000, .i32⟩
  | .hbm, ⟨31, _⟩ => ⟨S850000, .i32⟩
  | .hbm, ⟨32, _⟩ => ⟨S850000, .i32⟩
  | .hbm, ⟨33, _⟩ => ⟨S850000x1, .i32⟩
  | .hbm, ⟨34, _⟩ => ⟨S850000, .f32⟩
  | .hbm, ⟨35, _⟩ => ⟨S_, .i32⟩
  | .hbm, ⟨36, _⟩ => ⟨S850000, .i32⟩
  | .hbm, ⟨37, _⟩ => ⟨S850000, .i1⟩
  | .hbm, ⟨38, _⟩ => ⟨S_, .i32⟩
  | .hbm, ⟨39, _⟩ => ⟨S850000, .i32⟩
  | .hbm, ⟨40, _⟩ => ⟨S850000, .i32⟩
  | .hbm, ⟨41, _⟩ => ⟨S850000, .i32⟩
  | .hbm, ⟨42, _⟩ => ⟨S850000x1, .i32⟩
  | .hbm, ⟨43, _⟩ => ⟨S850000, .f32⟩
  | .hbm, ⟨44, _⟩ => ⟨S850000, .f32⟩
  | .hbm, ⟨45, _⟩ => ⟨S50000x96, .f32⟩
  | .hbm, ⟨46, _⟩ => ⟨S_, .i32⟩
  | .hbm, ⟨47, _⟩ => ⟨S850000, .i32⟩
  | .hbm, ⟨48, _⟩ => ⟨S850000, .i1⟩
  | .hbm, ⟨49, _⟩ => ⟨S_, .i32⟩
  | .hbm, ⟨50, _⟩ => ⟨S850000, .i32⟩
  | .hbm, ⟨51, _⟩ => ⟨S850000, .i32⟩
  | .hbm, ⟨52, _⟩ => ⟨S850000, .i32⟩
  | .hbm, ⟨53, _⟩ => ⟨S850000x1, .i32⟩
  | .hbm, ⟨54, _⟩ => ⟨S850000x96, .f32⟩
  | .hbm, ⟨55, _⟩ => ⟨S850000x1, .f32⟩
  | .hbm, ⟨56, _⟩ => ⟨S850000x96, .f32⟩
  | .hbm, ⟨57, _⟩ => ⟨S850000x96, .f32⟩
  | .hbm, ⟨58, _⟩ => ⟨S_, .f32⟩
  | .hbm, ⟨59, _⟩ => ⟨S50000x96, .f32⟩
  | .hbm, ⟨60, _⟩ => ⟨S850000x1, .i32⟩
  | .hbm, ⟨61, _⟩ => ⟨S50000x96, .f32⟩
  | .hbm, ⟨62, _⟩ => ⟨S1x96, .f32⟩
  | .hbm, ⟨63, _⟩ => ⟨S50000x96, .f32⟩
  | .hbm, ⟨64, _⟩ => ⟨S_, .i32⟩
  | .hbm, ⟨65, _⟩ => ⟨S850000, .i32⟩
  | .hbm, ⟨66, _⟩ => ⟨S850000, .i1⟩
  | .hbm, ⟨67, _⟩ => ⟨S_, .i32⟩
  | .hbm, ⟨68, _⟩ => ⟨S850000, .i32⟩
  | .hbm, ⟨69, _⟩ => ⟨S850000, .i32⟩
  | .hbm, ⟨70, _⟩ => ⟨S850000, .i32⟩
  | .hbm, ⟨71, _⟩ => ⟨S850000x1, .i32⟩
  | .hbm, ⟨72, _⟩ => ⟨S850000x96, .f32⟩
  | .hbm, ⟨73, _⟩ => ⟨S850000x1, .f32⟩
  | .hbm, ⟨74, _⟩ => ⟨S850000x96, .f32⟩
  | .hbm, ⟨75, _⟩ => ⟨S850000x96, .f32⟩
  | .hbm, ⟨76, _⟩ => ⟨S_, .f32⟩
  | .hbm, ⟨77, _⟩ => ⟨S50000x96, .f32⟩
  | .hbm, ⟨78, _⟩ => ⟨S850000x1, .i32⟩
  | .hbm, ⟨79, _⟩ => ⟨S50000x96, .f32⟩
  | .hbm, ⟨80, _⟩ => ⟨S1x96, .f32⟩
  | .hbm, ⟨81, _⟩ => ⟨S50000x96, .f32⟩
  | .hbm, ⟨82, _⟩ => ⟨S_, .i32⟩
  | .hbm, ⟨83, _⟩ => ⟨S850000, .i32⟩
  | .hbm, ⟨84, _⟩ => ⟨S850000, .i1⟩
  | .hbm, ⟨85, _⟩ => ⟨S_, .i32⟩
  | .hbm, ⟨86, _⟩ => ⟨S850000, .i32⟩
  | .hbm, ⟨87, _⟩ => ⟨S850000, .i32⟩
  | .hbm, ⟨88, _⟩ => ⟨S850000, .i32⟩
  | .hbm, ⟨89, _⟩ => ⟨S850000x1, .i32⟩
  | .hbm, ⟨90, _⟩ => ⟨S850000x96, .f32⟩
  | .hbm, ⟨91, _⟩ => ⟨S850000x1, .f32⟩
  | .hbm, ⟨92, _⟩ => ⟨S850000x96, .f32⟩
  | .hbm, ⟨93, _⟩ => ⟨S850000x96, .f32⟩
  | .hbm, ⟨94, _⟩ => ⟨S_, .f32⟩
  | .hbm, ⟨95, _⟩ => ⟨S50000x96, .f32⟩
  | .hbm, ⟨96, _⟩ => ⟨S850000x1, .i32⟩
  | .hbm, ⟨97, _⟩ => ⟨S50000x96, .f32⟩
  | .hbm, ⟨98, _⟩ => ⟨S1x96, .f32⟩
  | .hbm, ⟨99, _⟩ => ⟨S50000x96, .f32⟩
  | .hbm, ⟨100, _⟩ => ⟨S_, .i32⟩
  | .hbm, ⟨101, _⟩ => ⟨S850000, .i32⟩
  | .hbm, ⟨102, _⟩ => ⟨S850000, .i1⟩
  | .hbm, ⟨103, _⟩ => ⟨S_, .i32⟩
  | .hbm, ⟨104, _⟩ => ⟨S850000, .i32⟩
  | .hbm, ⟨105, _⟩ => ⟨S850000, .i32⟩
  | .hbm, ⟨106, _⟩ => ⟨S850000, .i32⟩
  | .hbm, ⟨107, _⟩ => ⟨S850000x1, .i32⟩
  | .hbm, ⟨108, _⟩ => ⟨S850000x96, .f32⟩
  | .hbm, ⟨109, _⟩ => ⟨S850000x1, .f32⟩
  | .hbm, ⟨110, _⟩ => ⟨S850000x96, .f32⟩
  | .hbm, ⟨111, _⟩ => ⟨S850000x96, .f32⟩
  | .hbm, ⟨112, _⟩ => ⟨S_, .f32⟩
  | .hbm, ⟨113, _⟩ => ⟨S50000x96, .f32⟩
  | .hbm, ⟨114, _⟩ => ⟨S850000x1, .i32⟩
  | .hbm, ⟨115, _⟩ => ⟨S50000x96, .f32⟩
  | .hbm, ⟨116, _⟩ => ⟨S1x96, .f32⟩
  | .hbm, ⟨117, _⟩ => ⟨S1x4, .f32⟩
  | .hbm, ⟨118, _⟩ => ⟨S50000x4, .f32⟩
  | .local _ .vmem, ⟨0, _⟩ => ⟨S5000x96, .f32⟩
  | .local _ .vmem, ⟨1, _⟩ => ⟨S5000x96, .f32⟩
  | .local _ .vmem, ⟨2, _⟩ => ⟨S96x96, .f32⟩
  | .local _ .vmem, ⟨3, _⟩ => ⟨S5000x96, .f32⟩
  | .local _ .vmem, ⟨4, _⟩ => ⟨S5000x96, .f32⟩
  | .local _ .vmem, ⟨5, _⟩ => ⟨S5000x96, .f32⟩
  | .local _ .vmem, ⟨6, _⟩ => ⟨S5000x96, .f32⟩
  | .local _ .vmem, ⟨7, _⟩ => ⟨S1x96, .f32⟩
  | .local _ .vmem, ⟨8, _⟩ => ⟨S96x96, .f32⟩
  | .local _ .vmem, ⟨9, _⟩ => ⟨S5000x96, .f32⟩
  | .local _ .vmem, ⟨10, _⟩ => ⟨S5000x96, .f32⟩
  | .local _ .vmem, ⟨11, _⟩ => ⟨S5000x96, .f32⟩
  | .local _ .vmem, ⟨12, _⟩ => ⟨S5000x96, .f32⟩
  | .local _ .vmem, ⟨13, _⟩ => ⟨S1x96, .f32⟩
  | .local _ .vmem, ⟨14, _⟩ => ⟨S96x96, .f32⟩
  | .local _ .vmem, ⟨15, _⟩ => ⟨S5000x96, .f32⟩
  | .local _ .vmem, ⟨16, _⟩ => ⟨S5000x96, .f32⟩
  | .local _ .vmem, ⟨17, _⟩ => ⟨S5000x96, .f32⟩
  | .local _ .vmem, ⟨18, _⟩ => ⟨S5000x96, .f32⟩
  | .local _ .vmem, ⟨19, _⟩ => ⟨S1x96, .f32⟩
  | .local _ .vmem, ⟨20, _⟩ => ⟨S96x96, .f32⟩
  | .local _ .vmem, ⟨21, _⟩ => ⟨S5000x96, .f32⟩
  | .local _ .vmem, ⟨22, _⟩ => ⟨S5000x96, .f32⟩
  | .local _ .vmem, ⟨23, _⟩ => ⟨S5000x96, .f32⟩
  | .local _ .vmem, ⟨24, _⟩ => ⟨S5000x96, .f32⟩
  | .local _ .vmem, ⟨25, _⟩ => ⟨S1x96, .f32⟩
  | .local _ .vmem, ⟨26, _⟩ => ⟨S96x4, .f32⟩
  | .local _ .vmem, ⟨27, _⟩ => ⟨S1x4, .f32⟩
  | .local _ .vmem, ⟨28, _⟩ => ⟨S5000x4, .f32⟩
  | .local _ .vmem, ⟨29, _⟩ => ⟨S5000x4, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_2 : Ref sig .tc := ⟨.hbm, 35, rfl⟩
abbrev main_v19 : Ref sig .tc := ⟨.hbm, 36, rfl⟩
abbrev main_v20 : Ref sig .tc := ⟨.hbm, 37, rfl⟩
abbrev main_c_3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_4 : Ref sig .tc := ⟨.hbm, 46, rfl⟩
abbrev main_v28 : Ref sig .tc := ⟨.hbm, 47, rfl⟩
abbrev main_v29 : Ref sig .tc := ⟨.hbm, 48, rfl⟩
abbrev main_c_5 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_6 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_c_7 : Ref sig .tc := ⟨.hbm, 64, rfl⟩
abbrev main_v43 : Ref sig .tc := ⟨.hbm, 65, rfl⟩
abbrev main_v44 : Ref sig .tc := ⟨.hbm, 66, rfl⟩
abbrev main_c_8 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_9 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_c_10 : Ref sig .tc := ⟨.hbm, 82, rfl⟩
abbrev main_v58 : Ref sig .tc := ⟨.hbm, 83, rfl⟩
abbrev main_v59 : Ref sig .tc := ⟨.hbm, 84, rfl⟩
abbrev main_c_11 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_12 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_c_13 : Ref sig .tc := ⟨.hbm, 100, rfl⟩
abbrev main_v73 : Ref sig .tc := ⟨.hbm, 101, rfl⟩
abbrev main_v74 : Ref sig .tc := ⟨.hbm, 102, rfl⟩
abbrev main_c_14 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_cst_15 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg3_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg3_0 : Ref sig .tc := ⟨.vmem, 27, rfl⟩
abbrev cc4_stg4_0 : Ref sig .tc := ⟨.vmem, 28, rfl⟩
abbrev cc4_stg4_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem3_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem3_0 : DmaSem sig := 27
abbrev cc4_sem4_0 : DmaSem sig := 28
abbrev cc4_sem4_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S96x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x96 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S96x96 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x96 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x96 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S96x96 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x96 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x96 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x96 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S96x96 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x96 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x96 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x96 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S96x4 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x4 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x4 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x96_S5000x96_0_0 : ∀ a, (![0, 0] : Fin 2 → Nat) a + S5000x96.size a ≤ S5000x96.size a
  h_S5000x96 : 0 < S5000x96.numel
  bitsLt_bf16_f32 : FTy.bits .bf16 < FTy.bits .f32
  inb_S96x96_S96x96_0_0 : ∀ a, (![0, 0] : Fin 2 → Nat) a + S96x96.size a ≤ S96x96.size a
  h_S96x96 : 0 < S96x96.numel
  bcast_S850000x1_S850000x96_0_1 : S850000x1.BroadcastsInDim S850000x96 (![0, 1] : Fin 2 → Fin S850000x96.rank)
  bcast_S_S50000x96 : S_.BroadcastsInDim S50000x96 (![] : Fin 0 → Fin S50000x96.rank)
  shapeCasts_S96_S1x96 : S96.ShapeCasts S1x96
  shapeCasts_S5000x96_S5000x96 : S5000x96.ShapeCasts S5000x96
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S5000x96 : S1x96.Broadcasts S5000x96
  shapeCasts_S4_S1x4 : S4.ShapeCasts S1x4
  inb_S96x4_S96x4_0_0 : ∀ a, (![0, 0] : Fin 2 → Nat) a + S96x4.size a ≤ S96x4.size a
  h_S96x4 : 0 < S96x4.numel
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S5000x4 : S1x4.Broadcasts S5000x4
  reduces_S5000x4_S5000 : S5000x4.Reduces [1] S5000
  shapeCasts_S5000_S5000x1 : S5000.ShapeCasts S5000x1
  broadcasts_S5000x1_S5000x4 : S5000x1.Broadcasts S5000x4
  inb_S5000x4_S5000x4_0_0 : ∀ a, (![0, 0] : Fin 2 → Nat) a + S5000x4.size a ≤ S5000x4.size a
  h_S5000x4 : 0 < S5000x4.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x96_S96x96_S5000x96_1_0_0_1_n_n_wf : DotDims.WF S5000x96 S96x96 S5000x96 [1] [0] [0] [1] [] []
  gather_S50000x96_S850000x1_S850000x96_1_0_n_n_0_1_196_wf : GatherDims.WF S50000x96 S850000x1 S850000x96 [1] [0] [] [0] [] 1 ![1, 96]
  scatter_S50000x96_S850000x1_S850000x96_1_0_0_1_wf : ScatterDims.WF S50000x96 S850000x1 S850000x96 [1] [0] [0] 1
  dot_S5000x96_S96x4_S5000x4_1_0_0_1_n_n_wf : DotDims.WF S5000x96 S96x4 S5000x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x96.size a ≤ S50000x96.size a
  hwx0_0 : ∀ i : grid0.Coords, EltTy.bits .f32 = 32 ∨ (Rect.block (s := S50000x96) S5000x96.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S96x96.size a ≤ S96x96.size a
  hwx0_1 : ∀ i : grid0.Coords, EltTy.bits .f32 = 32 ∨ (Rect.block (s := S96x96) S96x96.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x96.size a ≤ S50000x96.size a
  hwx0_2 : ∀ i : grid0.Coords, EltTy.bits .f32 = 32 ∨ (Rect.block (s := S50000x96) S5000x96.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x96.size a ≤ S50000x96.size a
  hwx1_0 : ∀ i : grid1.Coords, EltTy.bits .f32 = 32 ∨ (Rect.block (s := S50000x96) S5000x96.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x96.size a ≤ S1x96.size a
  hwx1_1 : ∀ i : grid1.Coords, EltTy.bits .f32 = 32 ∨ (Rect.block (s := S1x96) S1x96.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S96x96.size a ≤ S96x96.size a
  hwx1_2 : ∀ i : grid1.Coords, EltTy.bits .f32 = 32 ∨ (Rect.block (s := S96x96) S96x96.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x96.size a ≤ S50000x96.size a
  hwx1_3 : ∀ i : grid1.Coords, EltTy.bits .f32 = 32 ∨ (Rect.block (s := S50000x96) S5000x96.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x96.size a ≤ S50000x96.size a
  hwx2_0 : ∀ i : grid2.Coords, EltTy.bits .f32 = 32 ∨ (Rect.block (s := S50000x96) S5000x96.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x96.size a ≤ S1x96.size a
  hwx2_1 : ∀ i : grid2.Coords, EltTy.bits .f32 = 32 ∨ (Rect.block (s := S1x96) S1x96.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S96x96.size a ≤ S96x96.size a
  hwx2_2 : ∀ i : grid2.Coords, EltTy.bits .f32 = 32 ∨ (Rect.block (s := S96x96) S96x96.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x96.size a ≤ S50000x96.size a
  hwx2_3 : ∀ i : grid2.Coords, EltTy.bits .f32 = 32 ∨ (Rect.block (s := S50000x96) S5000x96.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x96.size a ≤ S50000x96.size a
  hwx3_0 : ∀ i : grid3.Coords, EltTy.bits .f32 = 32 ∨ (Rect.block (s := S50000x96) S5000x96.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x96.size a ≤ S1x96.size a
  hwx3_1 : ∀ i : grid3.Coords, EltTy.bits .f32 = 32 ∨ (Rect.block (s := S1x96) S1x96.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S96x96.size a ≤ S96x96.size a
  hwx3_2 : ∀ i : grid3.Coords, EltTy.bits .f32 = 32 ∨ (Rect.block (s := S96x96) S96x96.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x96.size a ≤ S50000x96.size a
  hwx3_3 : ∀ i : grid3.Coords, EltTy.bits .f32 = 32 ∨ (Rect.block (s := S50000x96) S5000x96.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x96.size a ≤ S50000x96.size a
  hwx4_0 : ∀ i : grid4.Coords, EltTy.bits .f32 = 32 ∨ (Rect.block (s := S50000x96) S5000x96.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x96.size a ≤ S1x96.size a
  hwx4_1 : ∀ i : grid4.Coords, EltTy.bits .f32 = 32 ∨ (Rect.block (s := S1x96) S1x96.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S96x4.size a ≤ S96x4.size a
  hwx4_2 : ∀ i : grid4.Coords, EltTy.bits .f32 = 32 ∨ (Rect.block (s := S96x4) S96x4.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x4.size a ≤ S1x4.size a
  hwx4_3 : ∀ i : grid4.Coords, EltTy.bits .f32 = 32 ∨ (Rect.block (s := S1x4) S1x4.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x4.size a ≤ S50000x4.size a
  hwx4_4 : ∀ i : grid4.Coords, EltTy.bits .f32 = 32 ∨ (Rect.block (s := S50000x4) S5000x4.size (cc4_transform_4 i) (hinb4_4 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x96_S96x96_S5000x96_1_0_0_1_n_n : DotDims S5000x96 S96x96 S5000x96 where
  lhsContracting := [1]
  rhsContracting := [0]
  lhsNonContracting := [0]
  rhsNonContracting := [1]
  lhsBatch := []
  rhsBatch := []
  wf := dot_S5000x96_S96x96_S5000x96_1_0_0_1_n_n_wf
def gather_S50000x96_S850000x1_S850000x96_1_0_n_n_0_1_196 : GatherDims S50000x96 S850000x1 S850000x96 where
  offsetDims := [1]
  collapsedSliceDims := [0]
  operandBatchingDims := []
  startIndicesBatchingDims := []
  startIndexMap := [0]
  indexVectorDim := 1
  sliceSizes := ![1, 96]
  wf := gather_S50000x96_S850000x1_S850000x96_1_0_n_n_0_1_196_wf
def scatter_S50000x96_S850000x1_S850000x96_1_0_0_1 : ScatterDims S50000x96 S850000x1 S850000x96 where
  updateWindowDims := [1]
  insertedWindowDims := [0]
  scatterDimsToOperandDims := [0]
  indexVectorDim := 1
  wf := scatter_S50000x96_S850000x1_S850000x96_1_0_0_1_wf
def dot_S5000x96_S96x4_S5000x4_1_0_0_1_n_n : DotDims S5000x96 S96x4 S5000x4 where
  lhsContracting := [1]
  rhsContracting := [0]
  lhsNonContracting := [0]
  rhsNonContracting := [1]
  lhsBatch := []
  rhsBatch := []
  wf := dot_S5000x96_S96x4_S5000x4_1_0_0_1_n_n_wf

abbrev win0_0 : Pipeline.Window sig grid0 :=
  Pipeline.Window.ofSpec (Memref.whole main_arg0) S5000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S96x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x96.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S5000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x96.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S96x96.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S5000x96.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v55) S5000x96.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v56) S1x96.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S96x96.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v57) S5000x96.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v70) S5000x96.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v71) S1x96.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg8) S96x96.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v72) S5000x96.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v85) S5000x96.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v86) S1x96.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg10) S96x4.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v87) S1x4.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v88) S5000x4.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

class Facts : Prop extends Facts₀ where

variable [Facts]
-- ==== ReferenceIdeal.lean ====
abbrev S50000x96 : Shape := ⟨2, ![50000, 96]⟩
abbrev S2x800000 : Shape := ⟨2, ![2, 800000]⟩
abbrev S96x96 : Shape := ⟨2, ![96, 96]⟩
abbrev S96 : Shape := ⟨1, ![96]⟩
abbrev S96x4 : Shape := ⟨2, ![96, 4]⟩
abbrev S4 : Shape := ⟨1, ![4]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x96 : Shape := ⟨2, ![850000, 96]⟩
abbrev S1x96 : Shape := ⟨2, ![1, 96]⟩
abbrev S50000x4 : Shape := ⟨2, ![50000, 4]⟩
abbrev S1x4 : Shape := ⟨2, ![1, 4]⟩
abbrev S50000x1 : Shape := ⟨2, ![50000, 1]⟩

abbrev nBuf : Space → Nat
  | .hbm => 153
  | .vmem => 0
  | .smem => 0
  | _ => 0

abbrev hbmTy0_0 (i : Nat) : BufTy := match i % 128 with
  | 0 => ⟨S50000x96, .f32⟩
  | 1 => ⟨S2x800000, .i32⟩
  | 2 => ⟨S96x96, .f32⟩
  | 3 => ⟨S96, .f32⟩
  | 4 => ⟨S96x96, .f32⟩
  | 5 => ⟨S96, .f32⟩
  | 6 => ⟨S96x96, .f32⟩
  | 7 => ⟨S96, .f32⟩
  | 8 => ⟨S96x96, .f32⟩
  | 9 => ⟨S96, .f32⟩
  | 10 => ⟨S96x4, .f32⟩
  | 11 => ⟨S4, .f32⟩
  | 12 => ⟨S50000, .i32⟩
  | 13 => ⟨S1x800000, .i32⟩
  | 14 => ⟨S800000, .i32⟩
  | 15 => ⟨S850000, .i32⟩
  | 16 => ⟨S1x800000, .i32⟩
  | 17 => ⟨S800000, .i32⟩
  | 18 => ⟨S850000, .i32⟩
  | 19 => ⟨S_, .f32⟩
  | 20 => ⟨S850000, .f32⟩
  | 21 => ⟨S_, .f32⟩
  | 22 => ⟨S50000, .f32⟩
  | 23 => ⟨S850000x1, .i32⟩
  | 24 => ⟨S50000, .f32⟩
  | 25 => ⟨S50000, .f32⟩
  | 26 => ⟨S_, .i32⟩
  | 27 => ⟨S850000, .i32⟩
  | 28 => ⟨S850000, .i1⟩
  | 29 => ⟨S_, .i32⟩
  | 30 => ⟨S850000, .i32⟩
  | 31 => ⟨S850000, .i32⟩
  | 32 => ⟨S850000, .i32⟩
  | 33 => ⟨S850000x1, .i32⟩
  | 34 => ⟨S850000, .f32⟩
  | 35 => ⟨S_, .i32⟩
  | 36 => ⟨S850000, .i32⟩
  | 37 => ⟨S850000, .i1⟩
  | 38 => ⟨S_, .i32⟩
  | 39 => ⟨S850000, .i32⟩
  | 40 => ⟨S850000, .i32⟩
  | 41 => ⟨S850000, .i32⟩
  | 42 => ⟨S850000x1, .i32⟩
  | 43 => ⟨S850000, .f32⟩
  | 44 => ⟨S850000, .f32⟩
  | 45 => ⟨S850000x1, .f32⟩
  | 46 => ⟨S50000x96, .f32⟩
  | 47 => ⟨S_, .i32⟩
  | 48 => ⟨S850000, .i32⟩
  | 49 => ⟨S850000, .i1⟩
  | 50 => ⟨S_, .i32⟩
  | 51 => ⟨S850000, .i32⟩
  | 52 => ⟨S850000, .i32⟩
  | 53 => ⟨S850000, .i32⟩
  | 54 => ⟨S850000x1, .i32⟩
  | 55 => ⟨S850000x96, .f32⟩
  | 56 => ⟨S850000x96, .f32⟩
  | 57 => ⟨S850000x96, .f32⟩
  | 58 => ⟨S_, .f32⟩
  | 59 => ⟨S50000x96, .f32⟩
  | 60 => ⟨S850000x1, .i32⟩
  | 61 => ⟨S50000x96, .f32⟩
  | 62 => ⟨S1x96, .f32⟩
  | 63 => ⟨S50000x96, .f32⟩
  | 64 => ⟨S50000x96, .f32⟩
  | 65 => ⟨S_, .f32⟩
  | 66 => ⟨S50000x96, .f32⟩
  | 67 => ⟨S50000x96, .f32⟩
  | 68 => ⟨S50000x96, .f32⟩
  | 69 => ⟨S_, .i32⟩
  | 70 => ⟨S850000, .i32⟩
  | 71 => ⟨S850000, .i1⟩
  | 72 => ⟨S_, .i32⟩
  | 73 => ⟨S850000, .i32⟩
  | 74 => ⟨S850000, .i32⟩
  | 75 => ⟨S850000, .i32⟩
  | 76 => ⟨S850000x1, .i32⟩
  | 77 => ⟨S850000x96, .f32⟩
  | 78 => ⟨S850000x96, .f32⟩
  | 79 => ⟨S850000x96, .f32⟩
  | 80 => ⟨S_, .f32⟩
  | 81 => ⟨S50000x96, .f32⟩
  | 82 => ⟨S850000x1, .i32⟩
  | 83 => ⟨S50000x96, .f32⟩
  | 84 => ⟨S1x96, .f32⟩
  | 85 => ⟨S50000x96, .f32⟩
  | 86 => ⟨S50000x96, .f32⟩
  | 87 => ⟨S_, .f32⟩
  | 88 => ⟨S50000x96, .f32⟩
  | 89 => ⟨S50000x96, .f32⟩
  | 90 => ⟨S50000x96, .f32⟩
  | 91 => ⟨S_, .i32⟩
  | 92 => ⟨S850000, .i32⟩
  | 93 => ⟨S850000, .i1⟩
  | 94 => ⟨S_, .i32⟩
  | 95 => ⟨S850000, .i32⟩
  | 96 => ⟨S850000, .i32⟩
  | 97 => ⟨S850000, .i32⟩
  | 98 => ⟨S850000x1, .i32⟩
  | 99 => ⟨S850000x96, .f32⟩
  | 100 => ⟨S850000x96, .f32⟩
  | 101 => ⟨S850000x96, .f32⟩
  | 102 => ⟨S_, .f32⟩
  | 103 => ⟨S50000x96, .f32⟩
  | 104 => ⟨S850000x1, .i32⟩
  | 105 => ⟨S50000x96, .f32⟩
  | 106 => ⟨S1x96, .f32⟩
  | 107 => ⟨S50000x96, .f32⟩
  | 108 => ⟨S50000x96, .f32⟩
  | 109 => ⟨S_, .f32⟩
  | 110 => ⟨S50000x96, .f32⟩
  | 111 => ⟨S50000x96, .f32⟩
  | 112 => ⟨S50000x96, .f32⟩
  | 113 => ⟨S_, .i32⟩
  | 114 => ⟨S850000, .i32⟩
  | 115 => ⟨S850000, .i1⟩
  | 116 => ⟨S_, .i32⟩
  | 117 => ⟨S850000, .i32⟩
  | 118 => ⟨S850000, .i32⟩
  | 119 => ⟨S850000, .i32⟩
  | 120 => ⟨S850000x1, .i32⟩
  | 121 => ⟨S850000x96, .f32⟩
  | 122 => ⟨S850000x96, .f32⟩
  | 123 => ⟨S850000x96, .f32⟩
  | 124 => ⟨S_, .f32⟩
  | 125 => ⟨S50000x96, .f32⟩
  | 126 => ⟨S850000x1, .i32⟩
  | 127 => ⟨S50000x96, .f32⟩
  | _ => ⟨S50000x96, .f32⟩

abbrev hbmTy0_1 (i : Nat) : BufTy := match i % 128 with
  | 0 => ⟨S1x96, .f32⟩
  | 1 => ⟨S50000x96, .f32⟩
  | 2 => ⟨S50000x96, .f32⟩
  | 3 => ⟨S_, .f32⟩
  | 4 => ⟨S50000x96, .f32⟩
  | 5 => ⟨S50000x96, .f32⟩
  | 6 => ⟨S50000x4, .f32⟩
  | 7 => ⟨S1x4, .f32⟩
  | 8 => ⟨S50000x4, .f32⟩
  | 9 => ⟨S50000x4, .f32⟩
  | 10 => ⟨S_, .f32⟩
  | 11 => ⟨S50000, .f32⟩
  | 12 => ⟨S_, .f32⟩
  | 13 => ⟨S50000, .f32⟩
  | 14 => ⟨S50000, .f32⟩
  | 15 => ⟨S50000x1, .f32⟩
  | 16 => ⟨S50000x4, .f32⟩
  | 17 => ⟨S50000x4, .f32⟩
  | 18 => ⟨S50000x4, .f32⟩
  | 19 => ⟨S_, .f32⟩
  | 20 => ⟨S50000, .f32⟩
  | 21 => ⟨S50000x1, .f32⟩
  | 22 => ⟨S50000x1, .f32⟩
  | 23 => ⟨S50000x4, .f32⟩
  | 24 => ⟨S50000x4, .f32⟩
  | _ => ⟨S50000x96, .f32⟩

abbrev hbmTy (i : Nat) : BufTy := match i / 128 with
  | 0 => hbmTy0_0 i
  | 1 => hbmTy0_1 i
  | _ => ⟨S50000x96, .f32⟩

abbrev bufTy : (tb : Table) → Fin (tcTables nBuf tb) → BufTy
  | .hbm, ⟨i, _⟩ => hbmTy i
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_2 : Ref sig .tc := ⟨.hbm, 35, rfl⟩
abbrev main_v19 : Ref sig .tc := ⟨.hbm, 36, rfl⟩
abbrev main_v20 : Ref sig .tc := ⟨.hbm, 37, rfl⟩
abbrev main_c_3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_4 : Ref sig .tc := ⟨.hbm, 47, rfl⟩
abbrev main_v29 : Ref sig .tc := ⟨.hbm, 48, rfl⟩
abbrev main_v30 : Ref sig .tc := ⟨.hbm, 49, rfl⟩
abbrev main_c_5 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_6 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_call0_cst : Ref sig .tc := ⟨.hbm, 65, rfl⟩
abbrev main_call0_v0 : Ref sig .tc := ⟨.hbm, 66, rfl⟩
abbrev main_v44 : Ref sig .tc := ⟨.hbm, 67, rfl⟩
abbrev main_v45 : Ref sig .tc := ⟨.hbm, 68, rfl⟩
abbrev main_c_7 : Ref sig .tc := ⟨.hbm, 69, rfl⟩
abbrev main_v46 : Ref sig .tc := ⟨.hbm, 70, rfl⟩
abbrev main_v47 : Ref sig .tc := ⟨.hbm, 71, rfl⟩
abbrev main_c_8 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_9 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_call1_cst : Ref sig .tc := ⟨.hbm, 87, rfl⟩
abbrev main_call1_v0 : Ref sig .tc := ⟨.hbm, 88, rfl⟩
abbrev main_v61 : Ref sig .tc := ⟨.hbm, 89, rfl⟩
abbrev main_v62 : Ref sig .tc := ⟨.hbm, 90, rfl⟩
abbrev main_c_10 : Ref sig .tc := ⟨.hbm, 91, rfl⟩
abbrev main_v63 : Ref sig .tc := ⟨.hbm, 92, rfl⟩
abbrev main_v64 : Ref sig .tc := ⟨.hbm, 93, rfl⟩
abbrev main_c_11 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_12 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_call2_cst : Ref sig .tc := ⟨.hbm, 109, rfl⟩
abbrev main_call2_v0 : Ref sig .tc := ⟨.hbm, 110, rfl⟩
abbrev main_v78 : Ref sig .tc := ⟨.hbm, 111, rfl⟩
abbrev main_v79 : Ref sig .tc := ⟨.hbm, 112, rfl⟩
abbrev main_c_13 : Ref sig .tc := ⟨.hbm, 113, rfl⟩
abbrev main_v80 : Ref sig .tc := ⟨.hbm, 114, rfl⟩
abbrev main_v81 : Ref sig .tc := ⟨.hbm, 115, rfl⟩
abbrev main_c_14 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_15 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_call3_cst : Ref sig .tc := ⟨.hbm, 131, rfl⟩
abbrev main_call3_v0 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_call4_cst : Ref sig .tc := ⟨.hbm, 138, rfl⟩
abbrev main_call4_v0 : Ref sig .tc := ⟨.hbm, 139, rfl⟩
abbrev main_call4_cst_0 : Ref sig .tc := ⟨.hbm, 140, rfl⟩
abbrev main_call4_v1 : Ref sig .tc := ⟨.hbm, 141, rfl⟩
abbrev main_call4_v2 : Ref sig .tc := ⟨.hbm, 142, rfl⟩
abbrev main_call4_v3 : Ref sig .tc := ⟨.hbm, 143, rfl⟩
abbrev main_call4_v4 : Ref sig .tc := ⟨.hbm, 144, rfl⟩
abbrev main_call4_v5 : Ref sig .tc := ⟨.hbm, 145, rfl⟩
abbrev main_call4_v6 : Ref sig .tc := ⟨.hbm, 146, rfl⟩
abbrev main_call4_cst_1 : Ref sig .tc := ⟨.hbm, 147, rfl⟩
abbrev main_call4_v7 : Ref sig .tc := ⟨.hbm, 148, rfl⟩
abbrev main_call4_v8 : Ref sig .tc := ⟨.hbm, 149, rfl⟩
abbrev main_call4_v9 : Ref sig .tc := ⟨.hbm, 150, rfl⟩
abbrev main_call4_v10 : Ref sig .tc := ⟨.hbm, 151, rfl⟩
abbrev main_v100 : Ref sig .tc := ⟨.hbm, 152, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x96_0_1 : S850000x1.BroadcastsInDim S850000x96 (![0, 1] : Fin 2 → Fin S850000x96.rank)
  bcast_S_S50000x96 : S_.BroadcastsInDim S50000x96 (![] : Fin 0 → Fin S50000x96.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  bcast_S4_S1x4_1 : S4.BroadcastsInDim S1x4 (![1] : Fin 1 → Fin S1x4.rank)
  bcast_S1x4_S50000x4_0_1 : S1x4.BroadcastsInDim S50000x4 (![0, 1] : Fin 2 → Fin S50000x4.rank)
  reducesTo_S50000x4_S50000_d1 : S50000x4.ReducesTo [1] S50000
  h_S_ : 0 < S_.numel
  bcast_S50000_S50000x1_0 : S50000.BroadcastsInDim S50000x1 (![0] : Fin 1 → Fin S50000x1.rank)
  bcast_S50000x1_S50000x4_0_1 : S50000x1.BroadcastsInDim S50000x4 (![0, 1] : Fin 2 → Fin S50000x4.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x96_S96x96_S50000x96_1_0_0_1_n_n_wf : DotDims.WF S50000x96 S96x96 S50000x96 [1] [0] [0] [1] [] []
  gather_S50000x96_S850000x1_S850000x96_1_0_n_n_0_1_196_wf : GatherDims.WF S50000x96 S850000x1 S850000x96 [1] [0] [] [0] [] 1 ![1, 96]
  scatter_S50000x96_S850000x1_S850000x96_1_0_0_1_wf : ScatterDims.WF S50000x96 S850000x1 S850000x96 [1] [0] [0] 1
  dot_S50000x96_S96x4_S50000x4_1_0_0_1_n_n_wf : DotDims.WF S50000x96 S96x4 S50000x4 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf
def gather_S50000x96_S850000x1_S850000x96_1_0_n_n_0_1_196 : GatherDims S50000x96 S850000x1 S850000x96 where
  offsetDims := [1]
  collapsedSliceDims := [0]
  operandBatchingDims := []
  startIndicesBatchingDims := []
  startIndexMap := [0]
  indexVectorDim := 1
  sliceSizes := ![1, 96]
  wf := gather_S50000x96_S850000x1_S850000x96_1_0_n_n_0_1_196_wf
def scatter_S50000x96_S850000x1_S850000x96_1_0_0_1 : ScatterDims S50000x96 S850000x1 S850000x96 where
  updateWindowDims := [1]
  insertedWindowDims := [0]
  scatterDimsToOperandDims := [0]
  indexVectorDim := 1
  wf := scatter_S50000x96_S850000x1_S850000x96_1_0_0_1_wf
def dot_S50000x96_S96x4_S50000x4_1_0_0_1_n_n : DotDims S50000x96 S96x4 S50000x4 where
  lhsContracting := [1]
  rhsContracting := [0]
  lhsNonContracting := [0]
  rhsNonContracting := [1]
  lhsBatch := []
  rhsBatch := []
  wf := dot_S50000x96_S96x4_S50000x4_1_0_0_1_n_n_wf

class Facts : Prop extends Facts₀ where

variable [Facts]
-- ==== Proof.KernelRun.lean ====
/-
  The idealized kernel's run with its result named.

  The program alternates stretches of host operations with five tiled regions. Its buffers' contents at the ten
  boundaries between them form a chain from the launch memory: a host stretch applies its operations to the
  contents it finds, a region leaves each of its arrays at what its tiles wrote back and every other buffer as
  it found it. Every weakly fair execution terminates with each unscoped buffer at the chain's last link; read
  at the result buffer that is the statement below, and at an argument buffer it is the launch contents.
-/
import proofs.«168274_j26371099198062_1_alg».proof.Proof.Gen.KernelIdeal.Frame

set_option maxRecDepth 16384

noncomputable section

namespace Cert.KernelIdeal.Valued

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's
    contents and the twelve argument arrays as launched. -/
theorem run : θ_run defs (onTc (τ := τ) (main (F := F))) ⟨m, fun _ => 0, ρ⟩ (fun r => ∀ c : Dev nD,
      r.2.mem ((c.tc : Thread nD τ).loc main_v88) = W10 m ρ c (Proc.devRef .tc main_v88)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v88 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c)⟩)

end Cert.KernelIdeal.Valued

end
-- ==== Proof.Graph.lean ====
/-
  The graph side of the network, as the kernel program's host operations compute it.

  From the edge list E (two rows of 800000 node numbers) the program forms, once: the message sources and targets (each
  row of E followed by the 50000 self-loops 0, 1, …), the degree of every node (a count of the targets), and the weight
  of every message, deg(source)^(-1/2) · deg(target)^(-1/2), a node number below zero counting from the end. After each
  dense stage it forms the normalised neighbourhood sum of that stage's output h: row d of the result is the sum, over
  the messages with target d, of weight · h(source). Nothing here is opened: these are the operations as printed, named,
  so that the reference's identical operations can be recognised as the same functions.
-/
import proofs.«168274_j26371099198062_1_alg».proof.Proof.Gen.KernelIdeal.Launch
import Idealize.ShloMosaic.Lib.StableHlo.Run

set_option maxRecDepth 16384

noncomputable section

namespace Cert.KernelIdeal.Graph

open Cert.KernelIdeal Cert.KernelIdeal.Facts₀ Cert.KernelIdeal.Facts
open Idealize.ShloMosaic Idealize.ShloMosaic.TcCoe Idealize.SL.Sem Idealize.ShloMosaic.StableHlo

variable {F : FTy → Type} [FloatOps F]

/-- Row `row` of the edge list followed by the self-loops 0 … 49999. -/
def endpoints (off : Fin 2 → Nat) (hs : S2x800000.Slices off S1x800000) (E : (⟨S2x800000, .i32⟩ : BufTy).Contents (Elt F)) : (⟨S850000, .i32⟩ : BufTy).Contents (Elt F) :=
  concatenate S850000 0 [⟨S800000, shapeCast S800000 (extractStridedSlice S1x800000 off E hs) shapeCasts_S1x800000_S800000⟩,
    ⟨S50000, iotaInDim S50000 32 0⟩] concatenates_S800000_S50000_S850000_d0

/-- The message sources. -/
def sources (E : (⟨S2x800000, .i32⟩ : BufTy).Contents (Elt F)) : (⟨S850000, .i32⟩ : BufTy).Contents (Elt F) := endpoints ![0, 0] slices_S2x800000_S1x800000_0_0 E
/-- The message targets. -/
def targets (E : (⟨S2x800000, .i32⟩ : BufTy).Contents (Elt F)) : (⟨S850000, .i32⟩ : BufTy).Contents (Elt F) := endpoints ![1, 0] slices_S2x800000_S1x800000_1_0 E

/-- A node number below zero counts from the end. -/
def wrapped (idx : (⟨S850000, .i32⟩ : BufTy).Contents (Elt F)) : (⟨S850000, .i32⟩ : BufTy).Contents (Elt F) :=
  select (cmpi .slt idx (broadcastInDim S850000 ![] bcast_S_S850000 (constantI S_ 32 0#32)))
    (addi idx (broadcastInDim S850000 ![] bcast_S_S850000 (constantI S_ 32 50000#32))) idx

/-- deg^(-1/2) of every node: the degree counts the messages arriving at it. -/
def inverseRootDegree (E : (⟨S2x800000, .i32⟩ : BufTy).Contents (Elt F)) : (⟨S50000, .f32⟩ : BufTy).Contents (Elt F) :=
  Host.rsqrt (Host.scatterAdd scatter_S50000_S850000x1_S850000_n_0_0_1
    (broadcastInDim S50000 ![] bcast_S_S50000 (constant S_ .f32 0x00000000#32))
    (broadcastInDim S850000x1 ![0] bcast_S850000_S850000x1_0 (targets E))
    (broadcastInDim S850000 ![] bcast_S_S850000 (constant S_ .f32 0x3F800000#32)))

/-- The weight of every message. -/
def weights (E : (⟨S2x800000, .i32⟩ : BufTy).Contents (Elt F)) : (⟨S850000, .f32⟩ : BufTy).Contents (Elt F) :=
  mulf (Host.gather gather_S50000_S850000x1_S850000_n_0_n_n_0_1_1 (inverseRootDegree E) (broadcastInDim S850000x1 ![0] bcast_S850000_S850000x1_0 (wrapped (sources E))))
    (Host.gather gather_S50000_S850000x1_S850000_n_0_n_n_0_1_1 (inverseRootDegree E) (broadcastInDim S850000x1 ![0] bcast_S850000_S850000x1_0 (wrapped (targets E))))

/-- The normalised neighbourhood sum of h. -/
def aggregate (src dst : (⟨S850000, .i32⟩ : BufTy).Contents (Elt F)) (w : (⟨S850000, .f32⟩ : BufTy).Contents (Elt F)) (h : (⟨S50000x96, .f32⟩ : BufTy).Contents (Elt F)) : (⟨S50000x96, .f32⟩ : BufTy).Contents (Elt F) :=
  Host.scatterAdd scatter_S50000x96_S850000x1_S850000x96_1_0_0_1
    (broadcastInDim S50000x96 ![] bcast_S_S50000x96 (constant S_ .f32 0x00000000#32))
    (broadcastInDim S850000x1 ![0] bcast_S850000_S850000x1_0 dst)
    (mulf (Host.gather gather_S50000x96_S850000x1_S850000x96_1_0_n_n_0_1_196 h (broadcastInDim S850000x1 ![0] bcast_S850000_S850000x1_0 (wrapped src)))
      (broadcastInDim S850000x96 ![0, 1] bcast_S850000x1_S850000x96_0_1 (broadcastInDim S850000x1 ![0] bcast_S850000_S850000x1_0 w)))

/-- A bias vector as a one-row matrix. -/
def oneRow (b : (⟨S96, .f32⟩ : BufTy).Contents (Elt F)) : (⟨S1x96, .f32⟩ : BufTy).Contents (Elt F) := shapeCast S1x96 b shapeCasts_S96_S1x96
/-- The classifier's bias as a one-row matrix. -/
def oneRow4 (b : (⟨S4, .f32⟩ : BufTy).Contents (Elt F)) : (⟨S1x4, .f32⟩ : BufTy).Contents (Elt F) := shapeCast S1x4 b shapeCasts_S4_S1x4

/-! ## What each stretch of host operations leaves -/

/-- The first stretch: the sources, the targets and the weights, from the edge list. -/
theorem stretch0_sources (W : Valuation τ sig (Elt F)) :
    StableHlo.after (Gen.hostOps0 (F := F)) W (Proc.devRef .tc main_v3) = sources (W (Proc.devRef .tc main_arg1)) := by
  after_results_simp <;> rfl
theorem stretch0_targets (W : Valuation τ sig (Elt F)) :
    StableHlo.after (Gen.hostOps0 (F := F)) W (Proc.devRef .tc main_v6) = targets (W (Proc.devRef .tc main_arg1)) := by
  after_results_simp <;> rfl
theorem stretch0_weights (W : Valuation τ sig (Elt F)) :
    StableHlo.after (Gen.hostOps0 (F := F)) W (Proc.devRef .tc main_v26) = weights (W (Proc.devRef .tc main_arg1)) := by
  after_results_simp <;> rfl

/-- Host stretch 1: the neighbourhood sum of the previous stage's output, and the next bias as a one-row matrix. -/
theorem stretch1_sum (W : Valuation τ sig (Elt F)) :
    StableHlo.after (Gen.hostOps1 (F := F)) W (Proc.devRef .tc main_v40)
      = aggregate (W (Proc.devRef .tc main_v3)) (W (Proc.devRef .tc main_v6)) (W (Proc.devRef .tc main_v26)) (W (Proc.devRef .tc main_v27)) := by
  after_results_simp <;> rfl
theorem stretch1_bias (W : Valuation τ sig (Elt F)) :
    StableHlo.after (Gen.hostOps1 (F := F)) W (Proc.devRef .tc main_v41) = oneRow (W (Proc.devRef .tc main_arg3)) := by
  after_results_simp <;> rfl

/-- Host stretch 2: the neighbourhood sum of the previous stage's output, and the next bias as a one-row matrix. -/
theorem stretch2_sum (W : Valuation τ sig (Elt F)) :
    StableHlo.after (Gen.hostOps2 (F := F)) W (Proc.devRef .tc main_v55)
      = aggregate (W (Proc.devRef .tc main_v3)) (W (Proc.devRef .tc main_v6)) (W (Proc.devRef .tc main_v26)) (W (Proc.devRef .tc main_v42)) := by
  after_results_simp <;> rfl
theorem stretch2_bias (W : Valuation τ sig (Elt F)) :
    StableHlo.after (Gen.hostOps2 (F := F)) W (Proc.devRef .tc main_v56) = oneRow (W (Proc.devRef .tc main_arg5)) := by
  after_results_simp <;> rfl

/-- Host stretch 3: the neighbourhood sum of the previous stage's output, and the next bias as a one-row matrix. -/
theorem stretch3_sum (W : Valuation τ sig (Elt F)) :
    StableHlo.after (Gen.hostOps3 (F := F)) W (Proc.devRef .tc main_v70)
      = aggregate (W (Proc.devRef .tc main_v3)) (W (Proc.devRef .tc main_v6)) (W (Proc.devRef .tc main_v26)) (W (Proc.devRef .tc main_v57)) := by
  after_results_simp <;> rfl
theorem stretch3_bias (W : Valuation τ sig (Elt F)) :
    StableHlo.after (Gen.hostOps3 (F := F)) W (Proc.devRef .tc main_v71) = oneRow (W (Proc.devRef .tc main_arg7)) := by
  after_results_simp <;> rfl

/-- Host stretch 4: the neighbourhood sum of the previous stage's output, and the next bias as a one-row matrix. -/
theorem stretch4_sum (W : Valuation τ sig (Elt F)) :
    StableHlo.after (Gen.hostOps4 (F := F)) W (Proc.devRef .tc main_v85)
      = aggregate (W (Proc.devRef .tc main_v3)) (W (Proc.devRef .tc main_v6)) (W (Proc.devRef .tc main_v26)) (W (Proc.devRef .tc main_v72)) := by
  after_results_simp <;> rfl
theorem stretch4_bias (W : Valuation τ sig (Elt F)) :
    StableHlo.after (Gen.hostOps4 (F := F)) W (Proc.devRef .tc main_v86) = oneRow (W (Proc.devRef .tc main_arg9)) := by
  after_results_simp <;> rfl
theorem stretch4_bias4 (W : Valuation τ sig (Elt F)) :
    StableHlo.after (Gen.hostOps4 (F := F)) W (Proc.devRef .tc main_v87) = oneRow4 (W (Proc.devRef .tc main_arg11)) := by
  after_results_simp <;> rfl

end Cert.KernelIdeal.Graph

end
-- ==== Proof.Spec.lean ====
/-
  What the network computes, entry by entry, on the extended reals.

  Four graph-convolution layers and a classifier over 50000 nodes with 96 features. A layer is a dense product
  followed by the normalised neighbourhood sum; the bias and the rectifier of layer n are applied at the head of
  layer n+1, just before its product. Only the dense parts are spelled here: the neighbourhood sum is one fixed
  map of [50000, 96] matrices that both programs apply verbatim, so it stays a parameter of the statements that
  use these definitions.

    product x W          (r, q) ↦ Σ_k x(r,k) · W(k,q)
    hidden a b W         (r, q) ↦ Σ_k max (a(r,k) + b(k)) 0 · W(k,q)
    scores a b W c       (r, q) ↦ Σ_k max (a(r,k) + b(k)) 0 · W(k,q) + c(q)
    logSoftmax z q       (z q − M) − log (Σ_j exp (z j − M)),   M = max (−∞) (max_j z j)

  The float words 0.0 and −∞ are kept as the words the programs print: both programs print the same ones, so
  they are never evaluated here.
-/
import Idealize.ShloMosaic.PureOps.Ideal
import Idealize.ShloMosaic.Lib.ValueIdx

noncomputable section

namespace Cert.Gcn

open Idealize.ShloMosaic Idealize.ShloMosaic.ValueIdx

/-- An n × k matrix of extended reals, indexed the way a rank-2 array is. -/
abbrev Mat (n k : Nat) : Type := (⟨2, ![n, k]⟩ : Shape).Idx → EReal
/-- A vector of n extended reals, indexed the way a rank-1 array is. -/
abbrev Vect (n : Nat) : Type := (⟨1, ![n]⟩ : Shape).Idx → EReal

/-- The f32 word of 0.0, as the extended real it denotes. -/
abbrev zeroWord : EReal := Ideal.ofBits .f32 0x00000000#32
/-- The f32 word of −∞, as the extended real it denotes. -/
abbrev negInfWord : EReal := Ideal.ofBits .f32 0xFF800000#32

/-- One entry of a dense product: row l against column r. -/
def dot {K : Nat} (l r : Fin K → EReal) : EReal := ∑ k : Fin K, l k * r k

/-- Bias then rectifier, one entry. -/
def rectified (a b : EReal) : EReal := max (a + b) zeroWord

/-- The first layer's dense part: x · W. -/
def product {n : Nat} (x : Mat n 96) (W : Mat 96 96) : Mat n 96 :=
  fun i => dot (fun k => x (ix2 (i 0) k)) (fun k => W (ix2 k (i 1)))

/-- A later layer's dense part: relu (a + b) · W, the bias b laid along the rows. -/
def hidden {n : Nat} (a : Mat n 96) (b : Vect 96) (W : Mat 96 96) : Mat n 96 :=
  fun i => dot (fun k => rectified (a (ix2 (i 0) k)) (b (ix1 k))) (fun k => W (ix2 k (i 1)))

/-- The classifier's scores of node r: relu (a + b) · W + c. -/
def scores {n : Nat} (a : Mat n 96) (b : Vect 96) (W : Mat 96 4) (c : Vect 4) (r : Fin n) : Fin 4 → EReal :=
  fun q => dot (fun k => rectified (a (ix2 r k)) (b (ix1 k))) (fun k => W (ix2 k q)) + c (ix1 q)

/-- The largest of four scores, guarded from below by −∞ as the programs guard it. -/
def rowMax (z : Fin 4 → EReal) : EReal := max negInfWord ((Finset.univ : Finset (Fin 4)).fold max negInfWord z)

/-- log-softmax of four scores, shifted by their maximum. -/
def logSoftmax (z : Fin 4 → EReal) (q : Fin 4) : EReal :=
  (z q - rowMax z) - Ideal.log (∑ j : Fin 4, Ideal.exp (z j - rowMax z))

/-- The network's last stage: log-softmax of each node's scores. -/
def output {n : Nat} (a : Mat n 96) (b : Vect 96) (W : Mat 96 4) (c : Vect 4) : Mat n 4 :=
  fun i => logSoftmax (scores a b W c (i 0)) (i 1)

end Cert.Gcn

end
-- ==== Proof.Network.lean ====
/-
  The whole network as one function of its twelve arrays.

  With S the normalised neighbourhood sum over the graph of the edge list E (formed from E's sources, targets and
  message weights), the network is

    output (S (hidden (S (hidden (S (hidden (S (product x W0)) b0 W1)) b1 W2)) b2 W3)) b3 Wl bl :

  a product, then three times (sum; bias, rectifier, product), then a last sum, bias, rectifier, product with the
  classifier's weights, its bias, and log-softmax of every node's four scores.
-/
import proofs.«168274_j26371099198062_1_alg».proof.Proof.Graph
import proofs.«168274_j26371099198062_1_alg».proof.Proof.Spec

noncomputable section

namespace Cert.Gcn

open Cert.KernelIdeal Idealize.ShloMosaic

/-- The normalised neighbourhood sum over the graph of the edge list E. -/
def neighbourSum (E : (⟨S2x800000, .i32⟩ : BufTy).Contents (Elt Ideal)) (h : Mat 50000 96) : Mat 50000 96 :=
  Cert.KernelIdeal.Graph.aggregate (F := Ideal) (Cert.KernelIdeal.Graph.sources E) (Cert.KernelIdeal.Graph.targets E)
    (Cert.KernelIdeal.Graph.weights E) h

/-- Four graph-convolution layers and the classifier. -/
def network (x : Mat 50000 96) (E : (⟨S2x800000, .i32⟩ : BufTy).Contents (Elt Ideal))
    (W0 : Mat 96 96) (b0 : Vect 96) (W1 : Mat 96 96) (b1 : Vect 96) (W2 : Mat 96 96) (b2 : Vect 96) (W3 : Mat 96 96) (b3 : Vect 96)
    (Wl : Mat 96 4) (bl : Vect 4) : Mat 50000 4 :=
  output (neighbourSum E (hidden (neighbourSum E (hidden (neighbourSum E (hidden (neighbourSum E (product x W0)) b0 W1)) b1 W2)) b2 W3)) b3 Wl bl

end Cert.Gcn

end
-- ==== Proof.LibRowOps.lean ====
/-
  Rows of a matrix reduced along their lanes, and a column of per-row values spread back over the lanes, each read at an
  index written by its coordinates.

  A softmax over the lanes of an `[a, b]` matrix takes, row by row, a maximum and a sum over the `b` lanes, and
  gives each back to every lane of its row (a vector `[a]` cast to a column `[a, 1]`, then broadcast to `[a, b]`).
  At the ideal values the lane maximum at row `p` is the fold of `max` over `c : Fin b` of the entries `(p, c)`, the
  lane sum the sum over `c` of them, and the spread column reads, at `(p, c)`, the vector at `p`.
  The host's reduction over the MIDDLE axis of an `[n, a, b]` array (a softmax over axis 1) is read the same way:
  at `(k, c)` the fold over `p : Fin a` of the entries `(k, p, c)`.
-/
import Idealize.ShloMosaic.PureOps.Ideal.Laws
import Idealize.ShloMosaic.Lib.Pipeline.Value
import Idealize.ShloMosaic.Lib.ValueIdx

namespace Cert.RowOps

open Idealize.ShloMosaic Idealize.ShloMosaic.ValueIdx

/-- A vector `[a]` cast to the column `[a, 1]` and broadcast over `b` lanes reads, at `(p, c)`, the vector at `p`:
    the column's one lane is lane `0`, and row `p` of the column is entry `p` of the vector. -/
theorem spreadColumn_apply {α : Type} {a b : ℕ} (x : (⟨1, ![a]⟩ : Shape).Idx → α)
    (h1 : (⟨1, ![a]⟩ : Shape).ShapeCasts ⟨2, ![a, 1]⟩) (h2 : (⟨2, ![a, 1]⟩ : Shape).Broadcasts ⟨2, ![a, b]⟩)
    (p : Fin a) (c : Fin b) :
    broadcastTo ⟨2, ![a, b]⟩ (shapeCast ⟨2, ![a, 1]⟩ x h1) h2 (ix2 p c) = x (ix1 p) := by
  refine (broadcastTo_apply _ h2 (ix2 p c) (ix2 p (0 : Fin 1)) fun ax => ?_).trans ?_
  · match ax with
    | ⟨0, _⟩ =>
      show p.val = if a = 1 then 0 else p.val
      split
      · have := p.isLt; omega
      · rfl
    | ⟨1, _⟩ =>
      show 0 = if (1 : ℕ) = 1 then 0 else c.val
      rw [if_pos rfl]
  · exact shapeCast_apply x h1 _ _ (by
      rw [Shape.rowMajor_val_one, Shape.rowMajor_val_two]
      show p.val = p.val * 1 + 0
      omega)

variable {φ : FTy}

/-- The lane maximum of row `p`: the fold of `max`, from the accumulator's value, over the row's `b` entries. -/
theorem laneMax_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun c => src (ix2 p c)) := by
  refine (Ideal.multiReduction_maximumf_single src acc h hφ hacc (ix1 p)).trans ?_
  show (Finset.univ : Finset (Fin b)).fold max (Ideal.ofBits φ acc) (fun c => src (h.lift (ix1 p) c)) = _
  refine congrArg (fun f => (Finset.univ : Finset (Fin b)).fold max (Ideal.ofBits φ acc) f) (funext fun c => ?_)
  exact congrArg src (funext fun ax => Fin.ext (by match ax with | ⟨0, _⟩ => rfl | ⟨1, _⟩ => rfl))

/-- The lane sum of row `p`: the sum of the row's `b` entries. -/
theorem laneSum_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ c : Fin b, src (ix2 p c) := by
  refine (Ideal.multiReduction_add_single src acc h hφ hacc (ix1 p)).trans ?_
  show ∑ c : Fin b, src (h.lift (ix1 p) c) = _
  refine Finset.sum_congr rfl fun c _ => ?_
  exact congrArg src (funext fun ax => Fin.ext (by match ax with | ⟨0, _⟩ => rfl | ⟨1, _⟩ => rfl))

/-- The host's maximum over the MIDDLE axis of an `[n, a, b]` array, at `(k, c)`: the fold of `max`, from the initial
    value, over `p : Fin a` of the entries `(k, p, c)`. -/
theorem hostMidMax_apply {n a b : ℕ} {u : Shape} (x : (⟨3, ![n, a, b]⟩ : Shape).Idx → Ideal φ) (init : u.Idx → Ideal φ)
    (h' : (⟨3, ![n, a, b]⟩ : Shape).ReducesTo [1] ⟨2, ![n, b]⟩) (h : (⟨3, ![n, a, b]⟩ : Shape).Reduces [1] ⟨2, ![n, b]⟩)
    (hu : 0 < u.numel) (k : Fin n) (c : Fin b) :
    Host.reduce (FloatOps.maximumf (F := Ideal) (φ := φ)) x init h' hu (ix2 k c)
      = (Finset.univ : Finset (Fin a)).fold max (init (Shape.Idx.first hu)) (fun p => x (ix3 k p c)) := by
  refine (Host.reduce_eq_fold_single (FloatOps.maximumf (F := Ideal) (φ := φ)) x init h' h hu (ix2 k c)).trans ?_
  show (Finset.univ : Finset (Fin a)).fold max (init (Shape.Idx.first hu)) (fun p => x (h.lift (ix2 k c) p)) = _
  refine congrArg (fun f => (Finset.univ : Finset (Fin a)).fold max (init (Shape.Idx.first hu)) f) (funext fun p => ?_)
  exact congrArg x (funext fun ax => Fin.ext (by match ax with | ⟨0, _⟩ => rfl | ⟨1, _⟩ => rfl | ⟨2, _⟩ => rfl))

end Cert.RowOps
-- ==== Proof.Payload.lean ====
/-
  What one tile of each dense stage computes, entry by entry.

  A tile is 5000 consecutive rows. Every stage's body forms its tile of the output from the matching tile of the
  input matrix and whole (small) weight and bias arrays: the first stage a product; the middle stages bias, rectifier,
  product; the last stage bias, rectifier, product, a second bias, and log-softmax along the four lanes of each row.
  Narrowing to bf16 before the products changes nothing on the extended reals, and a product into a zero accumulator is
  the plain sum of products. Each lemma reads the body's value at row p and column q of the tile.
-/
import proofs.«168274_j26371099198062_1_alg».proof.Proof.Gen.KernelIdeal.Skeleton
import proofs.«168274_j26371099198062_1_alg».proof.Proof.Spec
import proofs.«168274_j26371099198062_1_alg».proof.Proof.LibRowOps
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Tile

open Cert.KernelIdeal Cert.KernelIdeal.Gen
open Idealize.ShloMosaic Idealize.ShloMosaic.ValueIdx

/-! ## The two products -/

theorem mm96_lhs0 (i : S5000x96.Idx) (q : dot_S5000x96_S96x96_S5000x96_1_0_0_1_n_n.contr.Idx) : (dot_S5000x96_S96x96_S5000x96_1_0_0_1_n_n.lhsIdx i q 0).val = (i 0).val := by
  unfold DotDims.lhsIdx
  rw [dif_neg (show ¬(0 : Fin S5000x96.rank) ∈ dot_S5000x96_S96x96_S5000x96_1_0_0_1_n_n.lhsBatch by decide), dif_pos (show (0 : Fin S5000x96.rank) ∈ dot_S5000x96_S96x96_S5000x96_1_0_0_1_n_n.lhsNonContracting by decide)]
  rfl
theorem mm96_rhs1 (i : S5000x96.Idx) (q : dot_S5000x96_S96x96_S5000x96_1_0_0_1_n_n.contr.Idx) : (dot_S5000x96_S96x96_S5000x96_1_0_0_1_n_n.rhsIdx i q 1).val = (i 1).val := by
  unfold DotDims.rhsIdx
  rw [dif_neg (show ¬(1 : Fin S96x96.rank) ∈ dot_S5000x96_S96x96_S5000x96_1_0_0_1_n_n.rhsBatch by decide), dif_pos (show (1 : Fin S96x96.rank) ∈ dot_S5000x96_S96x96_S5000x96_1_0_0_1_n_n.rhsNonContracting by decide)]
  rfl

/-- A tile's product into the zero accumulator, at row p and column q: the sum over the 96 shared coordinates of
    the left operand's row p times the right operand's column q. -/
theorem mm96_apply (l : FVec Ideal S5000x96 .bf16) (r : FVec Ideal S96x96 .bf16) (p : Fin 5000) (q : Fin 96) :
    matmul dot_S5000x96_S96x96_S5000x96_1_0_0_1_n_n none l r (constant (F := Ideal) S5000x96 .f32 0x00000000#32) (ix2 p q)
      = Gcn.dot (fun k : Fin 96 => l (ix2 p k)) (fun k : Fin 96 => r (ix2 k q)) := by
  simp only [matmul]
  rw [Ideal.matmul_constant_zero_apply, ← Equiv.sum_comp (contrEquiv1 dot_S5000x96_S96x96_S5000x96_1_0_0_1_n_n 96 rfl rfl).symm]
  unfold Gcn.dot
  refine Finset.sum_congr rfl fun k _ => ?_
  have hk := contrEquiv1_symm_val dot_S5000x96_S96x96_S5000x96_1_0_0_1_n_n 96 rfl rfl k
  have el : dot_S5000x96_S96x96_S5000x96_1_0_0_1_n_n.lhsIdx (ix2 p q) ((contrEquiv1 dot_S5000x96_S96x96_S5000x96_1_0_0_1_n_n 96 rfl rfl).symm k) = ix2 p k := funext fun a => Fin.ext (by
    match a with
    | ⟨0, _⟩ => exact mm96_lhs0 _ _
    | ⟨1, _⟩ => exact (dot_S5000x96_S96x96_S5000x96_1_0_0_1_n_n.lhsIdx_val_of_single rfl (ix2 p q) _).trans hk)
  have er : dot_S5000x96_S96x96_S5000x96_1_0_0_1_n_n.rhsIdx (ix2 p q) ((contrEquiv1 dot_S5000x96_S96x96_S5000x96_1_0_0_1_n_n 96 rfl rfl).symm k) = ix2 k q := funext fun a => Fin.ext (by
    match a with
    | ⟨0, _⟩ => exact (dot_S5000x96_S96x96_S5000x96_1_0_0_1_n_n.rhsIdx_val_of_single rfl (ix2 p q) _).trans hk
    | ⟨1, _⟩ => exact mm96_rhs1 _ _)
  rw [el, er]

theorem mm4_lhs0 (i : S5000x4.Idx) (q : dot_S5000x96_S96x4_S5000x4_1_0_0_1_n_n.contr.Idx) : (dot_S5000x96_S96x4_S5000x4_1_0_0_1_n_n.lhsIdx i q 0).val = (i 0).val := by
  unfold DotDims.lhsIdx
  rw [dif_neg (show ¬(0 : Fin S5000x96.rank) ∈ dot_S5000x96_S96x4_S5000x4_1_0_0_1_n_n.lhsBatch by decide), dif_pos (show (0 : Fin S5000x96.rank) ∈ dot_S5000x96_S96x4_S5000x4_1_0_0_1_n_n.lhsNonContracting by decide)]
  rfl
theorem mm4_rhs1 (i : S5000x4.Idx) (q : dot_S5000x96_S96x4_S5000x4_1_0_0_1_n_n.contr.Idx) : (dot_S5000x96_S96x4_S5000x4_1_0_0_1_n_n.rhsIdx i q 1).val = (i 1).val := by
  unfold DotDims.rhsIdx
  rw [dif_neg (show ¬(1 : Fin S96x4.rank) ∈ dot_S5000x96_S96x4_S5000x4_1_0_0_1_n_n.rhsBatch by decide), dif_pos (show (1 : Fin S96x4.rank) ∈ dot_S5000x96_S96x4_S5000x4_1_0_0_1_n_n.rhsNonContracting by decide)]
  rfl

/-- A tile's product into the zero accumulator, at row p and column q: the sum over the 96 shared coordinates of
    the left operand's row p times the right operand's column q. -/
theorem mm4_apply (l : FVec Ideal S5000x96 .bf16) (r : FVec Ideal S96x4 .bf16) (p : Fin 5000) (q : Fin 4) :
    matmul dot_S5000x96_S96x4_S5000x4_1_0_0_1_n_n none l r (constant (F := Ideal) S5000x4 .f32 0x00000000#32) (ix2 p q)
      = Gcn.dot (fun k : Fin 96 => l (ix2 p k)) (fun k : Fin 96 => r (ix2 k q)) := by
  simp only [matmul]
  rw [Ideal.matmul_constant_zero_apply, ← Equiv.sum_comp (contrEquiv1 dot_S5000x96_S96x4_S5000x4_1_0_0_1_n_n 96 rfl rfl).symm]
  unfold Gcn.dot
  refine Finset.sum_congr rfl fun k _ => ?_
  have hk := contrEquiv1_symm_val dot_S5000x96_S96x4_S5000x4_1_0_0_1_n_n 96 rfl rfl k
  have el : dot_S5000x96_S96x4_S5000x4_1_0_0_1_n_n.lhsIdx (ix2 p q) ((contrEquiv1 dot_S5000x96_S96x4_S5000x4_1_0_0_1_n_n 96 rfl rfl).symm k) = ix2 p k := funext fun a => Fin.ext (by
    match a with
    | ⟨0, _⟩ => exact mm4_lhs0 _ _
    | ⟨1, _⟩ => exact (dot_S5000x96_S96x4_S5000x4_1_0_0_1_n_n.lhsIdx_val_of_single rfl (ix2 p q) _).trans hk)
  have er : dot_S5000x96_S96x4_S5000x4_1_0_0_1_n_n.rhsIdx (ix2 p q) ((contrEquiv1 dot_S5000x96_S96x4_S5000x4_1_0_0_1_n_n 96 rfl rfl).symm k) = ix2 k q := funext fun a => Fin.ext (by
    match a with
    | ⟨0, _⟩ => exact (dot_S5000x96_S96x4_S5000x4_1_0_0_1_n_n.rhsIdx_val_of_single rfl (ix2 p q) _).trans hk
    | ⟨1, _⟩ => exact mm4_rhs1 _ _)
  rw [el, er]

/-! ## Bias and rectifier ahead of a product -/

/-- The tile after the bias row is added and the rectifier applied, at (p, k). -/
theorem rectified_apply (x0 : Vec Ideal S5000x96 .f32) (x1 : Vec Ideal S1x96 .f32)
    (h0 : S5000x96.ShapeCasts S5000x96) (h1 : S1x96.ShapeCasts S1x96) (h2 : S1x96.Broadcasts S5000x96) (p : Fin 5000) (k : Fin 96) :
    maximumf (addf (shapeCast S5000x96 x0 h0) (broadcastTo S5000x96 (shapeCast S1x96 x1 h1) h2))
        (broadcast S5000x96 (Scalar.ofBits (F := Ideal) .f32 0x00000000#32)) (ix2 p k)
      = Gcn.rectified (x0 (ix2 p k)) (x1 (ix2 (0 : Fin 1) k)) := by
  show max (shapeCast S5000x96 x0 h0 (ix2 p k) + broadcastTo S5000x96 (shapeCast S1x96 x1 h1) h2 (ix2 p k)) (Ideal.ofBits .f32 0x00000000#32) = _
  rw [shapeCast_self, shapeCast_self, broadcastTo_1b_ab_apply]
  rfl

/-! ## The first stage -/

theorem product_apply (x0 : Vec Ideal S5000x96 .f32) (x1 : Vec Ideal S96x96 .f32) (p : Fin 5000) (q : Fin 96) :
    k0_pay1 (F := Ideal) x0 x1 (ix2 p q) = Gcn.dot (fun k : Fin 96 => x0 (ix2 p k)) (fun k : Fin 96 => x1 (ix2 k q)) := by
  unfold k0_pay1
  exact mm96_apply _ _ p q

/-! ## A middle stage -/

theorem hidden_apply (x0 : Vec Ideal S5000x96 .f32) (x1 : Vec Ideal S1x96 .f32) (x2 : Vec Ideal S96x96 .f32) (p : Fin 5000) (q : Fin 96) :
    k1_pay1 (F := Ideal) x0 x1 x2 (ix2 p q)
      = Gcn.dot (fun k : Fin 96 => Gcn.rectified (x0 (ix2 p k)) (x1 (ix2 (0 : Fin 1) k))) (fun k : Fin 96 => x2 (ix2 k q)) := by
  unfold k1_pay1
  refine (mm96_apply _ _ p q).trans ?_
  unfold Gcn.dot
  refine Finset.sum_congr rfl fun k _ => ?_
  exact congrArg (· * x2 (ix2 k q)) (rectified_apply x0 x1 _ _ _ p k)

/-- The three middle stages have one and the same body. -/
theorem k2_eq_k1 : @k2_pay1 = @k1_pay1 := rfl
theorem k3_eq_k1 : @k3_pay1 = @k1_pay1 := rfl

/-! ## The last stage: scores, then log-softmax along the four lanes -/

section LastStage

variable (hR : S5000x4.Reduces [1] S5000) (hC : S5000.ShapeCasts S5000x1) (hB : S5000x1.Broadcasts S5000x4)
  (hφ : FKind.Formats .f32) (hm : (0xFF800000#32 : BitVec FTy.f32.bits) = FKind.maximumf.neutral .f32 hφ)
  (ha : (0x00000000#32 : BitVec FTy.f32.bits) = FKind.add.neutral .f32 hφ)

/-- Each row's largest entry (guarded from below by −∞), one per row. -/
def rowMaxVec (z : FVec Ideal S5000x4 .f32) : FVec Ideal S5000 .f32 :=
  maximumf (broadcast S5000 (Scalar.ofBits (F := Ideal) .f32 0xFF800000#32)) (multiReduction .maximumf [1] S5000 z 0xFF800000#32 hR hφ hm)

/-- The tile with each row's largest entry subtracted from the row. -/
def shiftedTile (z : FVec Ideal S5000x4 .f32) : FVec Ideal S5000x4 .f32 :=
  subf z (broadcastTo S5000x4 (shapeCast S5000x1 (rowMaxVec hR hφ hm z) hC) hB)

/-- log-softmax of every row of the tile. -/
def logSoftmaxTile (z : FVec Ideal S5000x4 .f32) : FVec Ideal S5000x4 .f32 :=
  subf (shiftedTile hR hC hB hφ hm z)
    (broadcastTo S5000x4 (log (shapeCast S5000x1 (multiReduction .add [1] S5000 (exp (shiftedTile hR hC hB hφ hm z)) 0x00000000#32 hR hφ ha) hC)) hB)

theorem shiftedTile_apply (z : FVec Ideal S5000x4 .f32) (p : Fin 5000) (c : Fin 4) :
    shiftedTile hR hC hB hφ hm z (ix2 p c) = z (ix2 p c) - Gcn.rowMax (fun j : Fin 4 => z (ix2 p j)) := by
  show z (ix2 p c) - broadcastTo S5000x4 (shapeCast S5000x1 (rowMaxVec hR hφ hm z) hC) hB (ix2 p c) = _
  rw [Cert.RowOps.spreadColumn_apply]
  show z (ix2 p c) - max (Ideal.ofBits .f32 0xFF800000#32) (multiReduction .maximumf [1] S5000 z 0xFF800000#32 hR hφ hm (ix1 p)) = _
  rw [Cert.RowOps.laneMax_apply]
  rfl

theorem logSoftmaxTile_apply (z : FVec Ideal S5000x4 .f32) (p : Fin 5000) (q : Fin 4) :
    logSoftmaxTile hR hC hB hφ hm ha z (ix2 p q) = Gcn.logSoftmax (fun j : Fin 4 => z (ix2 p j)) q := by
  show shiftedTile hR hC hB hφ hm z (ix2 p q)
      - broadcastTo S5000x4 (shapeCast S5000x1 (log (multiReduction .add [1] S5000 (exp (shiftedTile hR hC hB hφ hm z)) 0x00000000#32 hR hφ ha)) hC) hB (ix2 p q) = _
  rw [Cert.RowOps.spreadColumn_apply, shiftedTile_apply]
  show _ - Ideal.log (multiReduction .add [1] S5000 (exp (shiftedTile hR hC hB hφ hm z)) 0x00000000#32 hR hφ ha (ix1 p)) = _
  rw [Cert.RowOps.laneSum_apply]
  unfold Gcn.logSoftmax
  refine congrArg (fun s => (z (ix2 p q) - Gcn.rowMax (fun j : Fin 4 => z (ix2 p j))) - Ideal.log s) (Finset.sum_congr rfl fun c _ => ?_)
  show Ideal.exp (shiftedTile hR hC hB hφ hm z (ix2 p c)) = _
  rw [shiftedTile_apply]

end LastStage

/-- A tile's scores: bias, rectifier, product with the classifier's weights, the second bias row. -/
def scoresTile (x0 : Vec Ideal S5000x96 .f32) (x1 : Vec Ideal S1x96 .f32) (x2 : Vec Ideal S96x4 .f32) (x3 : Vec Ideal S1x4 .f32)
    (h0 : S5000x96.ShapeCasts S5000x96) (h1 : S1x96.ShapeCasts S1x96) (h2 : S1x96.Broadcasts S5000x96)
    (h3 : S1x4.ShapeCasts S1x4) (h4 : S1x4.Broadcasts S5000x4) (hb : FTy.bits .bf16 < FTy.bits .f32) : FVec Ideal S5000x4 .f32 :=
  addf (matmul dot_S5000x96_S96x4_S5000x4_1_0_0_1_n_n none
      (truncf .bf16 (maximumf (addf (shapeCast S5000x96 x0 h0) (broadcastTo S5000x96 (shapeCast S1x96 x1 h1) h2))
        (broadcast S5000x96 (Scalar.ofBits (F := Ideal) .f32 0x00000000#32))) hb)
      (truncf .bf16 x2 hb) (constant (F := Ideal) S5000x4 .f32 0x00000000#32))
    (broadcastTo S5000x4 (shapeCast S1x4 x3 h3) h4)

theorem scoresTile_apply (x0 : Vec Ideal S5000x96 .f32) (x1 : Vec Ideal S1x96 .f32) (x2 : Vec Ideal S96x4 .f32) (x3 : Vec Ideal S1x4 .f32)
    (h0 : S5000x96.ShapeCasts S5000x96) (h1 : S1x96.ShapeCasts S1x96) (h2 : S1x96.Broadcasts S5000x96)
    (h3 : S1x4.ShapeCasts S1x4) (h4 : S1x4.Broadcasts S5000x4) (hb : FTy.bits .bf16 < FTy.bits .f32) (p : Fin 5000) (c : Fin 4) :
    scoresTile x0 x1 x2 x3 h0 h1 h2 h3 h4 hb (ix2 p c)
      = Gcn.dot (fun k : Fin 96 => Gcn.rectified (x0 (ix2 p k)) (x1 (ix2 (0 : Fin 1) k))) (fun k : Fin 96 => x2 (ix2 k c)) + x3 (ix2 (0 : Fin 1) c) := by
  unfold scoresTile
  show matmul dot_S5000x96_S96x4_S5000x4_1_0_0_1_n_n none _ _ (constant (F := Ideal) S5000x4 .f32 0x00000000#32) (ix2 p c)
      + broadcastTo S5000x4 (shapeCast S1x4 x3 h3) h4 (ix2 p c) = _
  rw [mm4_apply, broadcastTo_1b_ab_apply, shapeCast_self x3 h3]
  refine congrArg (· + x3 (ix2 (0 : Fin 1) c)) ?_
  unfold Gcn.dot
  refine Finset.sum_congr rfl fun k _ => ?_
  exact congrArg (· * x2 (ix2 k c)) (rectified_apply x0 x1 h0 h1 h2 p k)

/-- The last stage's body is the log-softmax of its tile's scores. -/
theorem output_apply (x0 : Vec Ideal S5000x96 .f32) (x1 : Vec Ideal S1x96 .f32) (x2 : Vec Ideal S96x4 .f32) (x3 : Vec Ideal S1x4 .f32)
    (p : Fin 5000) (q : Fin 4) :
    k4_pay1 (F := Ideal) x0 x1 x2 x3 (ix2 p q)
      = Gcn.logSoftmax (fun c : Fin 4 => Gcn.dot (fun k : Fin 96 => Gcn.rectified (x0 (ix2 p k)) (x1 (ix2 (0 : Fin 1) k))) (fun k : Fin 96 => x2 (ix2 k c))
          + x3 (ix2 (0 : Fin 1) c)) q := by
  show logSoftmaxTile _ _ _ _ _ _ (scoresTile x0 x1 x2 x3 _ _ _ _ _ _) (ix2 p q) = _
  refine (logSoftmaxTile_apply _ _ _ _ _ _ _ p q).trans ?_
  refine congrArg (fun z => Gcn.logSoftmax z q) (funext fun c => ?_)
  exact scoresTile_apply x0 x1 x2 x3 _ _ _ _ _ _ p c

end Cert.KernelIdeal.Tile

end
-- ==== Proof.WholeProduct.lean ====
/-
  The first stage's output array, whole.

  The stage runs over ten grid points; point t forms rows 5000·t … 5000·t + 4999 of the output from the same rows of
  the input and the whole weight matrix. Row r of the product depends on row r of the input only, so a tile of the
  whole-array product is the product of the tile; and the ten tiles cover the 50000 rows (row r lies in tile r / 5000).
  Hence the array the stage leaves is the product of the arrays it finds.
-/
import proofs.«168274_j26371099198062_1_alg».proof.Proof.Gen.KernelIdeal.Frame
import proofs.«168274_j26371099198062_1_alg».proof.Proof.Payload
import Idealize.ShloMosaic.Lib.Pipeline.Value

set_option maxRecDepth 16384

noncomputable section

namespace Cert.KernelIdeal.Whole

open Cert.KernelIdeal Cert.KernelIdeal.Gen
open Idealize.ShloMosaic Idealize.ShloMosaic.ValueIdx Idealize.ShloMosaic.TcCoe Idealize.SL.Sem
open Idealize.ShloMosaic.Pipeline (Dat Cfg Window)

variable (V : (c : Dev nD) → (b : Ref sig .tc) → Buf (Elt Ideal) ((c : Thread nD τ).loc b))

theorem origin2 : (![0, 0] : Fin 2 → Nat) = fun _ => 0 := funext fun a => by fin_cases a <;> rfl

/-- Where each window's tile sits at grid point t: the row tiles at block-row t, the weights at the origin. -/
theorem tiles0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What grid point t writes back is tile t of the whole-array product. -/
theorem flushed0 (c : Dev nD) (t : Fin cfg0.N) :
    (dat0 V c).flushed 2 t = ((cfg0.win 2).blk t).view.read (Elt Ideal) (Gcn.product (n := 50000) (V c main_arg0) (V c main_arg2)) := by
  show (cfg0.win 2).cut (grid0.coords t) ((dat0 V c).after 2 t) = _
  rw [after0_2]
  unfold out0_2
  rw [View.canon_unit_zero origin2]
  simp only [View.ld_unit_zero (S := S5000x96) origin2, View.ld_unit_zero (S := S96x96) origin2]
  obtain ⟨e0, e1, e2, e3, e4, e5⟩ := tiles0 t
  refine funext fun j => ?_
  obtain ⟨p, q, rfl⟩ : ∃ (p : Fin 5000) (q : Fin 96), j = (ix2 p q : S5000x96.Idx) := ⟨j 0, j 1, eq_ix2 (n0 := 5000) (n1 := 96) j⟩
  refine (Tile.product_apply (iblk0 V c 0 t) (iblk0 V c 1 t) p q).trans ?_
  show Gcn.dot (fun k : Fin 96 => V c main_arg0 (((cfg0.win 0).blk t).view.emb (ix2 p k)))
        (fun k : Fin 96 => V c main_arg2 (((cfg0.win 1).blk t).view.emb (ix2 k q)))
     = Gcn.dot (fun k : Fin 96 => V c main_arg0 (ix2 ((((cfg0.win 2).blk t).view.emb (ix2 p q)) 0) k))
        (fun k : Fin 96 => V c main_arg2 (ix2 k ((((cfg0.win 2).blk t).view.emb (ix2 p q)) 1)))
  have h0 : ∀ k : Fin 96, ((cfg0.win 0).blk t).view.emb (ix2 p k) = ix2 ((((cfg0.win 2).blk t).view.emb (ix2 p q)) 0) k := fun k => by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 96 + 1 * k.val = k.val; omega
  have h1 : ∀ k : Fin 96, ((cfg0.win 1).blk t).view.emb (ix2 k q) = ix2 k ((((cfg0.win 2).blk t).view.emb (ix2 p q)) 1) := fun k => by
    funext a; apply Fin.ext
    match a with
    | ⟨0, _⟩ => show win0_1.index t (0 : Fin 2) * 96 + 1 * k.val = k.val; omega
    | ⟨1, _⟩ => show win0_1.index t (1 : Fin 2) * 96 + 1 * q.val = win0_2.index t (1 : Fin 2) * 96 + 1 * q.val; omega
  exact congrArg₂ (Gcn.dot (K := 96)) (funext fun k => congrArg (V c main_arg0) (h0 k)) (funext fun k => congrArg (V c main_arg2) (h1 k))

/-- An index of the output array is in tile t iff each coordinate is in the tile's range on its axis. -/
theorem mem_tile0 (t : Fin cfg0.N) (i : S50000x96.Idx) :
    i ∈ ((cfg0.win 2).blk t).view.set ↔ ∀ a : Fin 2, win0_2.index t a * S5000x96.size a ≤ (i a).val ∧ (i a).val < win0_2.index t a * S5000x96.size a + S5000x96.size a := by
  show i ∈ ((View.whole main_v27).slice (win0_2.rect t)).set ↔ _
  rw [View.set_slice_whole, Rect.mem_set_unit]
  exact Iff.rfl

/-- Every index of the output array lies in some point's tile: row r in tile r / 5000. -/
theorem cover0 (i : S50000x96.Idx) : ∃ t : Fin cfg0.N, (cfg0.win 2).flush t = true ∧ i ∈ ((cfg0.win 2).blk t).view.set := by
  have hi0 : (i 0).val < 50000 := (i 0).isLt
  have hi1 : (i 1).val < 96 := (i 1).isLt
  obtain ⟨t, ht⟩ : ∃ t : Fin cfg0.N, t.val = (i 0).val / 5000 := ⟨⟨(i 0).val / 5000, by show _ < 10; omega⟩, rfl⟩
  obtain ⟨-, -, -, -, e4, e5⟩ := tiles0 t
  refine ⟨t, flush0_2 t, ?_⟩
  rw [mem_tile0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 96 ≤ (i 1).val ∧ (i 1).val < win0_2.index t (1 : Fin 2) * 96 + 96; omega

/-- The array the first stage leaves: the product of the two arrays it finds. -/
theorem array0 (c : Dev nD) :
    (dat0 V c).arrAt 2 cfg0.N = Gcn.product (n := 50000) (V c main_arg0) (V c main_arg2) :=
  (dat0 V c).arrAt_eq_of_cover 2 _ (fun t _ => flushed0 V c t) cover0

end Cert.KernelIdeal.Whole

end
-- ==== Proof.WholeHidden1.lean ====
/-
  A middle stage's output array, whole (stage 1).

  Ten grid points; point t forms rows 5000·t … 5000·t + 4999 of the output from the same rows of the input, the one-row
  bias and the whole weight matrix: bias, rectifier, product. Row r of the result depends on row r of the input only, so
  a tile of the whole-array result is the result of the tile, and the ten tiles cover the 50000 rows.
-/
import proofs.«168274_j26371099198062_1_alg».proof.Proof.Gen.KernelIdeal.Frame
import proofs.«168274_j26371099198062_1_alg».proof.Proof.Payload
import Idealize.ShloMosaic.Lib.Pipeline.Value

set_option maxRecDepth 16384

noncomputable section

namespace Cert.KernelIdeal.Whole

open Cert.KernelIdeal Cert.KernelIdeal.Gen
open Idealize.ShloMosaic Idealize.ShloMosaic.ValueIdx Idealize.ShloMosaic.TcCoe Idealize.SL.Sem
open Idealize.ShloMosaic.Pipeline (Dat Cfg Window)

variable (V : (c : Dev nD) → (b : Ref sig .tc) → Buf (Elt Ideal) ((c : Thread nD τ).loc b))

theorem origin2_1 : (![0, 0] : Fin 2 → Nat) = fun _ => 0 := funext fun a => by fin_cases a <;> rfl

/-- Where each window's tile sits at grid point t: the row tiles at block-row t, bias and weights at the origin. -/
theorem tiles1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The stage's whole-array result from the three arrays it finds (the bias as it finds it: a one-row matrix). -/
abbrev result1 (c : Dev nD) : Gcn.Mat 50000 96 :=
  Gcn.hidden (n := 50000) (V c main_v40) (fun k => V c main_v41 (ix2 (0 : Fin 1) (k 0))) (V c main_arg4)

/-- What grid point t writes back is tile t of the whole-array result. -/
theorem flushed1 (c : Dev nD) (t : Fin cfg1.N) :
    (dat1 V c).flushed 3 t = ((cfg1.win 3).blk t).view.read (Elt Ideal) (result1 V c) := by
  show (cfg1.win 3).cut (grid1.coords t) ((dat1 V c).after 3 t) = _
  rw [after1_3]
  unfold out1_3
  rw [View.canon_unit_zero origin2_1]
  simp only [View.ld_unit_zero (S := S5000x96) origin2_1, View.ld_unit_zero (S := S1x96) origin2_1, View.ld_unit_zero (S := S96x96) origin2_1]
  obtain ⟨e0, e1, e2, e3, e4, e5, e6, e7⟩ := tiles1 t
  refine funext fun j => ?_
  obtain ⟨p, q, rfl⟩ : ∃ (p : Fin 5000) (q : Fin 96), j = (ix2 p q : S5000x96.Idx) := ⟨j 0, j 1, eq_ix2 (n0 := 5000) (n1 := 96) j⟩
  refine (Tile.hidden_apply (iblk1 V c 0 t) (iblk1 V c 1 t) (iblk1 V c 2 t) p q).trans ?_
  show Gcn.dot (fun k : Fin 96 => Gcn.rectified (V c main_v40 (((cfg1.win 0).blk t).view.emb (ix2 p k))) (V c main_v41 (((cfg1.win 1).blk t).view.emb (ix2 (0 : Fin 1) k))))
        (fun k : Fin 96 => V c main_arg4 (((cfg1.win 2).blk t).view.emb (ix2 k q)))
     = Gcn.dot (fun k : Fin 96 => Gcn.rectified (V c main_v40 (ix2 ((((cfg1.win 3).blk t).view.emb (ix2 p q)) 0) k)) (V c main_v41 (ix2 (0 : Fin 1) k)))
        (fun k : Fin 96 => V c main_arg4 (ix2 k ((((cfg1.win 3).blk t).view.emb (ix2 p q)) 1)))
  have h0 : ∀ k : Fin 96, ((cfg1.win 0).blk t).view.emb (ix2 p k) = ix2 ((((cfg1.win 3).blk t).view.emb (ix2 p q)) 0) k := fun k => by
    funext a; apply Fin.ext
    match a with
    | ⟨0, _⟩ => show win1_0.index t (0 : Fin 2) * 5000 + 1 * p.val = win1_3.index t (0 : Fin 2) * 5000 + 1 * p.val; omega
    | ⟨1, _⟩ => show win1_0.index t (1 : Fin 2) * 96 + 1 * k.val = k.val; omega
  have h1 : ∀ k : Fin 96, ((cfg1.win 1).blk t).view.emb (ix2 (0 : Fin 1) k) = ix2 (0 : Fin 1) k := fun k => by
    funext a; apply Fin.ext
    match a with
    | ⟨0, _⟩ => show win1_1.index t (0 : Fin 2) * 1 + 1 * 0 = 0; omega
    | ⟨1, _⟩ => show win1_1.index t (1 : Fin 2) * 96 + 1 * k.val = k.val; omega
  have h2 : ∀ k : Fin 96, ((cfg1.win 2).blk t).view.emb (ix2 k q) = ix2 k ((((cfg1.win 3).blk t).view.emb (ix2 p q)) 1) := fun k => by
    funext a; apply Fin.ext
    match a with
    | ⟨0, _⟩ => show win1_2.index t (0 : Fin 2) * 96 + 1 * k.val = k.val; omega
    | ⟨1, _⟩ => show win1_2.index t (1 : Fin 2) * 96 + 1 * q.val = win1_3.index t (1 : Fin 2) * 96 + 1 * q.val; omega
  exact congrArg₂ (Gcn.dot (K := 96))
    (funext fun k => congrArg₂ Gcn.rectified (congrArg (V c main_v40) (h0 k)) (congrArg (V c main_v41) (h1 k)))
    (funext fun k => congrArg (V c main_arg4) (h2 k))

/-- An index of the output array is in tile t iff each coordinate is in the tile's range on its axis. -/
theorem mem_tile1 (t : Fin cfg1.N) (i : S50000x96.Idx) :
    i ∈ ((cfg1.win 3).blk t).view.set ↔ ∀ a : Fin 2, win1_3.index t a * S5000x96.size a ≤ (i a).val ∧ (i a).val < win1_3.index t a * S5000x96.size a + S5000x96.size a := by
  show i ∈ ((View.whole main_v42).slice (win1_3.rect t)).set ↔ _
  rw [View.set_slice_whole, Rect.mem_set_unit]
  exact Iff.rfl

/-- Every index of the output array lies in some point's tile: row r in tile r / 5000. -/
theorem cover1 (i : S50000x96.Idx) : ∃ t : Fin cfg1.N, (cfg1.win 3).flush t = true ∧ i ∈ ((cfg1.win 3).blk t).view.set := by
  have hi0 : (i 0).val < 50000 := (i 0).isLt
  have hi1 : (i 1).val < 96 := (i 1).isLt
  obtain ⟨t, ht⟩ : ∃ t : Fin cfg1.N, t.val = (i 0).val / 5000 := ⟨⟨(i 0).val / 5000, by show _ < 10; omega⟩, rfl⟩
  obtain ⟨-, -, -, -, -, -, e6, e7⟩ := tiles1 t
  refine ⟨t, flush1_3 t, ?_⟩
  rw [mem_tile1]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 96 ≤ (i 1).val ∧ (i 1).val < win1_3.index t (1 : Fin 2) * 96 + 96; omega

/-- The array the stage leaves: bias, rectifier and product of the arrays it finds. -/
theorem array1 (c : Dev nD) : (dat1 V c).arrAt 3 cfg1.N = result1 V c :=
  (dat1 V c).arrAt_eq_of_cover 3 _ (fun t _ => flushed1 V c t) cover1

end Cert.KernelIdeal.Whole

end
-- ==== Proof.WholeHidden2.lean ====
/-
  A middle stage's output array, whole (stage 2).

  Ten grid points; point t forms rows 5000·t … 5000·t + 4999 of the output from the same rows of the input, the one-row
  bias and the whole weight matrix: bias, rectifier, product. Row r of the result depends on row r of the input only, so
  a tile of the whole-array result is the result of the tile, and the ten tiles cover the 50000 rows.
-/
import proofs.«168274_j26371099198062_1_alg».proof.Proof.Gen.KernelIdeal.Frame
import proofs.«168274_j26371099198062_1_alg».proof.Proof.Payload
import Idealize.ShloMosaic.Lib.Pipeline.Value

set_option maxRecDepth 16384

noncomputable section

namespace Cert.KernelIdeal.Whole

open Cert.KernelIdeal Cert.KernelIdeal.Gen
open Idealize.ShloMosaic Idealize.ShloMosaic.ValueIdx Idealize.ShloMosaic.TcCoe Idealize.SL.Sem
open Idealize.ShloMosaic.Pipeline (Dat Cfg Window)

variable (V : (c : Dev nD) → (b : Ref sig .tc) → Buf (Elt Ideal) ((c : Thread nD τ).loc b))

theorem origin2_2 : (![0, 0] : Fin 2 → Nat) = fun _ => 0 := funext fun a => by fin_cases a <;> rfl

/-- Where each window's tile sits at grid point t: the row tiles at block-row t, bias and weights at the origin. -/
theorem tiles2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The stage's whole-array result from the three arrays it finds (the bias as it finds it: a one-row matrix). -/
abbrev result2 (c : Dev nD) : Gcn.Mat 50000 96 :=
  Gcn.hidden (n := 50000) (V c main_v55) (fun k => V c main_v56 (ix2 (0 : Fin 1) (k 0))) (V c main_arg6)

/-- What grid point t writes back is tile t of the whole-array result. -/
theorem flushed2 (c : Dev nD) (t : Fin cfg2.N) :
    (dat2 V c).flushed 3 t = ((cfg2.win 3).blk t).view.read (Elt Ideal) (result2 V c) := by
  show (cfg2.win 3).cut (grid2.coords t) ((dat2 V c).after 3 t) = _
  rw [after2_3]
  unfold out2_3
  rw [View.canon_unit_zero origin2_2]
  simp only [View.ld_unit_zero (S := S5000x96) origin2_2, View.ld_unit_zero (S := S1x96) origin2_2, View.ld_unit_zero (S := S96x96) origin2_2]
  obtain ⟨e0, e1, e2, e3, e4, e5, e6, e7⟩ := tiles2 t
  refine funext fun j => ?_
  obtain ⟨p, q, rfl⟩ : ∃ (p : Fin 5000) (q : Fin 96), j = (ix2 p q : S5000x96.Idx) := ⟨j 0, j 1, eq_ix2 (n0 := 5000) (n1 := 96) j⟩
  refine (Tile.hidden_apply (iblk2 V c 0 t) (iblk2 V c 1 t) (iblk2 V c 2 t) p q).trans ?_
  show Gcn.dot (fun k : Fin 96 => Gcn.rectified (V c main_v55 (((cfg2.win 0).blk t).view.emb (ix2 p k))) (V c main_v56 (((cfg2.win 1).blk t).view.emb (ix2 (0 : Fin 1) k))))
        (fun k : Fin 96 => V c main_arg6 (((cfg2.win 2).blk t).view.emb (ix2 k q)))
     = Gcn.dot (fun k : Fin 96 => Gcn.rectified (V c main_v55 (ix2 ((((cfg2.win 3).blk t).view.emb (ix2 p q)) 0) k)) (V c main_v56 (ix2 (0 : Fin 1) k)))
        (fun k : Fin 96 => V c main_arg6 (ix2 k ((((cfg2.win 3).blk t).view.emb (ix2 p q)) 1)))
  have h0 : ∀ k : Fin 96, ((cfg2.win 0).blk t).view.emb (ix2 p k) = ix2 ((((cfg2.win 3).blk t).view.emb (ix2 p q)) 0) k := fun k => by
    funext a; apply Fin.ext
    match a with
    | ⟨0, _⟩ => show win2_0.index t (0 : Fin 2) * 5000 + 1 * p.val = win2_3.index t (0 : Fin 2) * 5000 + 1 * p.val; omega
    | ⟨1, _⟩ => show win2_0.index t (1 : Fin 2) * 96 + 1 * k.val = k.val; omega
  have h1 : ∀ k : Fin 96, ((cfg2.win 1).blk t).view.emb (ix2 (0 : Fin 1) k) = ix2 (0 : Fin 1) k := fun k => by
    funext a; apply Fin.ext
    match a with
    | ⟨0, _⟩ => show win2_1.index t (0 : Fin 2) * 1 + 1 * 0 = 0; omega
    | ⟨1, _⟩ => show win2_1.index t (1 : Fin 2) * 96 + 1 * k.val = k.val; omega
  have h2 : ∀ k : Fin 96, ((cfg2.win 2).blk t).view.emb (ix2 k q) = ix2 k ((((cfg2.win 3).blk t).view.emb (ix2 p q)) 1) := fun k => by
    funext a; apply Fin.ext
    match a with
    | ⟨0, _⟩ => show win2_2.index t (0 : Fin 2) * 96 + 1 * k.val = k.val; omega
    | ⟨1, _⟩ => show win2_2.index t (1 : Fin 2) * 96 + 1 * q.val = win2_3.index t (1 : Fin 2) * 96 + 1 * q.val; omega
  exact congrArg₂ (Gcn.dot (K := 96))
    (funext fun k => congrArg₂ Gcn.rectified (congrArg (V c main_v55) (h0 k)) (congrArg (V c main_v56) (h1 k)))
    (funext fun k => congrArg (V c main_arg6) (h2 k))

/-- An index of the output array is in tile t iff each coordinate is in the tile's range on its axis. -/
theorem mem_tile2 (t : Fin cfg2.N) (i : S50000x96.Idx) :
    i ∈ ((cfg2.win 3).blk t).view.set ↔ ∀ a : Fin 2, win2_3.index t a * S5000x96.size a ≤ (i a).val ∧ (i a).val < win2_3.index t a * S5000x96.size a + S5000x96.size a := by
  show i ∈ ((View.whole main_v57).slice (win2_3.rect t)).set ↔ _
  rw [View.set_slice_whole, Rect.mem_set_unit]
  exact Iff.rfl

/-- Every index of the output array lies in some point's tile: row r in tile r / 5000. -/
theorem cover2 (i : S50000x96.Idx) : ∃ t : Fin cfg2.N, (cfg2.win 3).flush t = true ∧ i ∈ ((cfg2.win 3).blk t).view.set := by
  have hi0 : (i 0).val < 50000 := (i 0).isLt
  have hi1 : (i 1).val < 96 := (i 1).isLt
  obtain ⟨t, ht⟩ : ∃ t : Fin cfg2.N, t.val = (i 0).val / 5000 := ⟨⟨(i 0).val / 5000, by show _ < 10; omega⟩, rfl⟩
  obtain ⟨-, -, -, -, -, -, e6, e7⟩ := tiles2 t
  refine ⟨t, flush2_3 t, ?_⟩
  rw [mem_tile2]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 96 ≤ (i 1).val ∧ (i 1).val < win2_3.index t (1 : Fin 2) * 96 + 96; omega

/-- The array the stage leaves: bias, rectifier and product of the arrays it finds. -/
theorem array2 (c : Dev nD) : (dat2 V c).arrAt 3 cfg2.N = result2 V c :=
  (dat2 V c).arrAt_eq_of_cover 3 _ (fun t _ => flushed2 V c t) cover2

end Cert.KernelIdeal.Whole

end
-- ==== Proof.WholeHidden3.lean ====
/-
  A middle stage's output array, whole (stage 3).

  Ten grid points; point t forms rows 5000·t … 5000·t + 4999 of the output from the same rows of the input, the one-row
  bias and the whole weight matrix: bias, rectifier, product. Row r of the result depends on row r of the input only, so
  a tile of the whole-array result is the result of the tile, and the ten tiles cover the 50000 rows.
-/
import proofs.«168274_j26371099198062_1_alg».proof.Proof.Gen.KernelIdeal.Frame
import proofs.«168274_j26371099198062_1_alg».proof.Proof.Payload
import Idealize.ShloMosaic.Lib.Pipeline.Value

set_option maxRecDepth 16384

noncomputable section

namespace Cert.KernelIdeal.Whole

open Cert.KernelIdeal Cert.KernelIdeal.Gen
open Idealize.ShloMosaic Idealize.ShloMosaic.ValueIdx Idealize.ShloMosaic.TcCoe Idealize.SL.Sem
open Idealize.ShloMosaic.Pipeline (Dat Cfg Window)

variable (V : (c : Dev nD) → (b : Ref sig .tc) → Buf (Elt Ideal) ((c : Thread nD τ).loc b))

theorem origin2_3 : (![0, 0] : Fin 2 → Nat) = fun _ => 0 := funext fun a => by fin_cases a <;> rfl

/-- Where each window's tile sits at grid point t: the row tiles at block-row t, bias and weights at the origin. -/
theorem tiles3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The stage's whole-array result from the three arrays it finds (the bias as it finds it: a one-row matrix). -/
abbrev result3 (c : Dev nD) : Gcn.Mat 50000 96 :=
  Gcn.hidden (n := 50000) (V c main_v70) (fun k => V c main_v71 (ix2 (0 : Fin 1) (k 0))) (V c main_arg8)

/-- What grid point t writes back is tile t of the whole-array result. -/
theorem flushed3 (c : Dev nD) (t : Fin cfg3.N) :
    (dat3 V c).flushed 3 t = ((cfg3.win 3).blk t).view.read (Elt Ideal) (result3 V c) := by
  show (cfg3.win 3).cut (grid3.coords t) ((dat3 V c).after 3 t) = _
  rw [after3_3]
  unfold out3_3
  rw [View.canon_unit_zero origin2_3]
  simp only [View.ld_unit_zero (S := S5000x96) origin2_3, View.ld_unit_zero (S := S1x96) origin2_3, View.ld_unit_zero (S := S96x96) origin2_3]
  obtain ⟨e0, e1, e2, e3, e4, e5, e6, e7⟩ := tiles3 t
  refine funext fun j => ?_
  obtain ⟨p, q, rfl⟩ : ∃ (p : Fin 5000) (q : Fin 96), j = (ix2 p q : S5000x96.Idx) := ⟨j 0, j 1, eq_ix2 (n0 := 5000) (n1 := 96) j⟩
  refine (Tile.hidden_apply (iblk3 V c 0 t) (iblk3 V c 1 t) (iblk3 V c 2 t) p q).trans ?_
  show Gcn.dot (fun k : Fin 96 => Gcn.rectified (V c main_v70 (((cfg3.win 0).blk t).view.emb (ix2 p k))) (V c main_v71 (((cfg3.win 1).blk t).view.emb (ix2 (0 : Fin 1) k))))
        (fun k : Fin 96 => V c main_arg8 (((cfg3.win 2).blk t).view.emb (ix2 k q)))
     = Gcn.dot (fun k : Fin 96 => Gcn.rectified (V c main_v70 (ix2 ((((cfg3.win 3).blk t).view.emb (ix2 p q)) 0) k)) (V c main_v71 (ix2 (0 : Fin 1) k)))
        (fun k : Fin 96 => V c main_arg8 (ix2 k ((((cfg3.win 3).blk t).view.emb (ix2 p q)) 1)))
  have h0 : ∀ k : Fin 96, ((cfg3.win 0).blk t).view.emb (ix2 p k) = ix2 ((((cfg3.win 3).blk t).view.emb (ix2 p q)) 0) k := fun k => by
    funext a; apply Fin.ext
    match a with
    | ⟨0, _⟩ => show win3_0.index t (0 : Fin 2) * 5000 + 1 * p.val = win3_3.index t (0 : Fin 2) * 5000 + 1 * p.val; omega
    | ⟨1, _⟩ => show win3_0.index t (1 : Fin 2) * 96 + 1 * k.val = k.val; omega
  have h1 : ∀ k : Fin 96, ((cfg3.win 1).blk t).view.emb (ix2 (0 : Fin 1) k) = ix2 (0 : Fin 1) k := fun k => by
    funext a; apply Fin.ext
    match a with
    | ⟨0, _⟩ => show win3_1.index t (0 : Fin 2) * 1 + 1 * 0 = 0; omega
    | ⟨1, _⟩ => show win3_1.index t (1 : Fin 2) * 96 + 1 * k.val = k.val; omega
  have h2 : ∀ k : Fin 96, ((cfg3.win 2).blk t).view.emb (ix2 k q) = ix2 k ((((cfg3.win 3).blk t).view.emb (ix2 p q)) 1) := fun k => by
    funext a; apply Fin.ext
    match a with
    | ⟨0, _⟩ => show win3_2.index t (0 : Fin 2) * 96 + 1 * k.val = k.val; omega
    | ⟨1, _⟩ => show win3_2.index t (1 : Fin 2) * 96 + 1 * q.val = win3_3.index t (1 : Fin 2) * 96 + 1 * q.val; omega
  exact congrArg₂ (Gcn.dot (K := 96))
    (funext fun k => congrArg₂ Gcn.rectified (congrArg (V c main_v70) (h0 k)) (congrArg (V c main_v71) (h1 k)))
    (funext fun k => congrArg (V c main_arg8) (h2 k))

/-- An index of the output array is in tile t iff each coordinate is in the tile's range on its axis. -/
theorem mem_tile3 (t : Fin cfg3.N) (i : S50000x96.Idx) :
    i ∈ ((cfg3.win 3).blk t).view.set ↔ ∀ a : Fin 2, win3_3.index t a * S5000x96.size a ≤ (i a).val ∧ (i a).val < win3_3.index t a * S5000x96.size a + S5000x96.size a := by
  show i ∈ ((View.whole main_v72).slice (win3_3.rect t)).set ↔ _
  rw [View.set_slice_whole, Rect.mem_set_unit]
  exact Iff.rfl

/-- Every index of the output array lies in some point's tile: row r in tile r / 5000. -/
theorem cover3 (i : S50000x96.Idx) : ∃ t : Fin cfg3.N, (cfg3.win 3).flush t = true ∧ i ∈ ((cfg3.win 3).blk t).view.set := by
  have hi0 : (i 0).val < 50000 := (i 0).isLt
  have hi1 : (i 1).val < 96 := (i 1).isLt
  obtain ⟨t, ht⟩ : ∃ t : Fin cfg3.N, t.val = (i 0).val / 5000 := ⟨⟨(i 0).val / 5000, by show _ < 10; omega⟩, rfl⟩
  obtain ⟨-, -, -, -, -, -, e6, e7⟩ := tiles3 t
  refine ⟨t, flush3_3 t, ?_⟩
  rw [mem_tile3]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 96 ≤ (i 1).val ∧ (i 1).val < win3_3.index t (1 : Fin 2) * 96 + 96; omega

/-- The array the stage leaves: bias, rectifier and product of the arrays it finds. -/
theorem array3 (c : Dev nD) : (dat3 V c).arrAt 3 cfg3.N = result3 V c :=
  (dat3 V c).arrAt_eq_of_cover 3 _ (fun t _ => flushed3 V c t) cover3

end Cert.KernelIdeal.Whole

end
-- ==== Proof.WholeOutput.lean ====
/-
  The last stage's output array, whole.

  Ten grid points; point t forms rows 5000·t … 5000·t + 4999 of the [50000, 4] output from the same rows of the input,
  the one-row bias, the classifier's weights and its one-row bias: bias, rectifier, product, second bias, and log-softmax
  along each row's four lanes. Every step acts within a row, so a tile of the whole-array result is the result of the
  tile, and the ten tiles cover the 50000 rows.
-/
import proofs.«168274_j26371099198062_1_alg».proof.Proof.Gen.KernelIdeal.Frame
import proofs.«168274_j26371099198062_1_alg».proof.Proof.Payload
import Idealize.ShloMosaic.Lib.Pipeline.Value

set_option maxRecDepth 16384

noncomputable section

namespace Cert.KernelIdeal.Whole

open Cert.KernelIdeal Cert.KernelIdeal.Gen
open Idealize.ShloMosaic Idealize.ShloMosaic.ValueIdx Idealize.ShloMosaic.TcCoe Idealize.SL.Sem
open Idealize.ShloMosaic.Pipeline (Dat Cfg Window)

variable (V : (c : Dev nD) → (b : Ref sig .tc) → Buf (Elt Ideal) ((c : Thread nD τ).loc b))

theorem origin2_4 : (![0, 0] : Fin 2 → Nat) = fun _ => 0 := funext fun a => by fin_cases a <;> rfl

/-- Where each window's tile sits at grid point t: the row tiles at block-row t, everything else at the origin. -/
theorem tiles4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-- The stage's whole-array result from the four arrays it finds (the two biases as it finds them: one-row matrices). -/
abbrev result4 (c : Dev nD) : Gcn.Mat 50000 4 :=
  Gcn.output (n := 50000) (V c main_v85) (fun k => V c main_v86 (ix2 (0 : Fin 1) (k 0))) (V c main_arg10)
    (fun k => V c main_v87 (ix2 (0 : Fin 1) (k 0)))

/-- What grid point t writes back is tile t of the whole-array result. -/
theorem flushed4 (c : Dev nD) (t : Fin cfg4.N) :
    (dat4 V c).flushed 4 t = ((cfg4.win 4).blk t).view.read (Elt Ideal) (result4 V c) := by
  show (cfg4.win 4).cut (grid4.coords t) ((dat4 V c).after 4 t) = _
  rw [after4_4]
  unfold out4_4
  rw [View.canon_unit_zero origin2_4]
  simp only [View.ld_unit_zero (S := S5000x96) origin2_4, View.ld_unit_zero (S := S1x96) origin2_4, View.ld_unit_zero (S := S96x4) origin2_4,
    View.ld_unit_zero (S := S1x4) origin2_4]
  obtain ⟨e0, e1, e2, e3, e4, e5, e6, e7, e8, e9⟩ := tiles4 t
  refine funext fun j => ?_
  obtain ⟨p, q, rfl⟩ : ∃ (p : Fin 5000) (q : Fin 4), j = (ix2 p q : S5000x4.Idx) := ⟨j 0, j 1, eq_ix2 (n0 := 5000) (n1 := 4) j⟩
  refine (Tile.output_apply (iblk4 V c 0 t) (iblk4 V c 1 t) (iblk4 V c 2 t) (iblk4 V c 3 t) p q).trans ?_
  show Gcn.logSoftmax (fun l : Fin 4 =>
          Gcn.dot (fun k : Fin 96 => Gcn.rectified (V c main_v85 (((cfg4.win 0).blk t).view.emb (ix2 p k))) (V c main_v86 (((cfg4.win 1).blk t).view.emb (ix2 (0 : Fin 1) k))))
            (fun k : Fin 96 => V c main_arg10 (((cfg4.win 2).blk t).view.emb (ix2 k l)))
          + V c main_v87 (((cfg4.win 3).blk t).view.emb (ix2 (0 : Fin 1) l))) q
     = Gcn.logSoftmax (fun l : Fin 4 =>
          Gcn.dot (fun k : Fin 96 => Gcn.rectified (V c main_v85 (ix2 ((((cfg4.win 4).blk t).view.emb (ix2 p q)) 0) k)) (V c main_v86 (ix2 (0 : Fin 1) k)))
            (fun k : Fin 96 => V c main_arg10 (ix2 k l))
          + V c main_v87 (ix2 (0 : Fin 1) l)) ((((cfg4.win 4).blk t).view.emb (ix2 p q)) 1)
  have h0 : ∀ k : Fin 96, ((cfg4.win 0).blk t).view.emb (ix2 p k) = ix2 ((((cfg4.win 4).blk t).view.emb (ix2 p q)) 0) k := fun k => by
    funext a; apply Fin.ext
    match a with
    | ⟨0, _⟩ => show win4_0.index t (0 : Fin 2) * 5000 + 1 * p.val = win4_4.index t (0 : Fin 2) * 5000 + 1 * p.val; omega
    | ⟨1, _⟩ => show win4_0.index t (1 : Fin 2) * 96 + 1 * k.val = k.val; omega
  have h1 : ∀ k : Fin 96, ((cfg4.win 1).blk t).view.emb (ix2 (0 : Fin 1) k) = ix2 (0 : Fin 1) k := fun k => by
    funext a; apply Fin.ext
    match a with
    | ⟨0, _⟩ => show win4_1.index t (0 : Fin 2) * 1 + 1 * 0 = 0; omega
    | ⟨1, _⟩ => show win4_1.index t (1 : Fin 2) * 96 + 1 * k.val = k.val; omega
  have h2 : ∀ (k : Fin 96) (l : Fin 4), ((cfg4.win 2).blk t).view.emb (ix2 k l) = ix2 k l := fun k l => by
    funext a; apply Fin.ext
    match a with
    | ⟨0, _⟩ => show win4_2.index t (0 : Fin 2) * 96 + 1 * k.val = k.val; omega
    | ⟨1, _⟩ => show win4_2.index t (1 : Fin 2) * 4 + 1 * l.val = l.val; omega
  have h3 : ∀ l : Fin 4, ((cfg4.win 3).blk t).view.emb (ix2 (0 : Fin 1) l) = ix2 (0 : Fin 1) l := fun l => by
    funext a; apply Fin.ext
    match a with
    | ⟨0, _⟩ => show win4_3.index t (0 : Fin 2) * 1 + 1 * 0 = 0; omega
    | ⟨1, _⟩ => show win4_3.index t (1 : Fin 2) * 4 + 1 * l.val = l.val; omega
  have hq : ((((cfg4.win 4).blk t).view.emb (ix2 p q)) 1) = q :=
    Fin.ext (by show win4_4.index t (1 : Fin 2) * 4 + 1 * q.val = q.val; omega)
  exact congrArg₂ Gcn.logSoftmax
    (funext fun l => congrArg₂ (· + ·)
      (congrArg₂ (Gcn.dot (K := 96))
        (funext fun k => congrArg₂ Gcn.rectified (congrArg (V c main_v85) (h0 k)) (congrArg (V c main_v86) (h1 k)))
        (funext fun k => congrArg (V c main_arg10) (h2 k l)))
      (congrArg (V c main_v87) (h3 l)))
    hq.symm

/-- An index of the output array is in tile t iff each coordinate is in the tile's range on its axis. -/
theorem mem_tile4 (t : Fin cfg4.N) (i : S50000x4.Idx) :
    i ∈ ((cfg4.win 4).blk t).view.set ↔ ∀ a : Fin 2, win4_4.index t a * S5000x4.size a ≤ (i a).val ∧ (i a).val < win4_4.index t a * S5000x4.size a + S5000x4.size a := by
  show i ∈ ((View.whole main_v88).slice (win4_4.rect t)).set ↔ _
  rw [View.set_slice_whole, Rect.mem_set_unit]
  exact Iff.rfl

/-- Every index of the output array lies in some point's tile: row r in tile r / 5000. -/
theorem cover4 (i : S50000x4.Idx) : ∃ t : Fin cfg4.N, (cfg4.win 4).flush t = true ∧ i ∈ ((cfg4.win 4).blk t).view.set := by
  have hi0 : (i 0).val < 50000 := (i 0).isLt
  have hi1 : (i 1).val < 4 := (i 1).isLt
  obtain ⟨t, ht⟩ : ∃ t : Fin cfg4.N, t.val = (i 0).val / 5000 := ⟨⟨(i 0).val / 5000, by show _ < 10; omega⟩, rfl⟩
  obtain ⟨-, -, -, -, -, -, -, -, e8, e9⟩ := tiles4 t
  refine ⟨t, flush4_4 t, ?_⟩
  rw [mem_tile4]
  intro a
  match a with
  | ⟨0, _⟩ => show win4_4.index t (0 : Fin 2) * 5000 ≤ (i 0).val ∧ (i 0).val < win4_4.index t (0 : Fin 2) * 5000 + 5000; omega
  | ⟨1, _⟩ => show win4_4.index t (1 : Fin 2) * 4 ≤ (i 1).val ∧ (i 1).val < win4_4.index t (1 : Fin 2) * 4 + 4; omega

/-- The array the last stage leaves: the network's output from the arrays it finds. -/
theorem array4 (c : Dev nD) : (dat4 V c).arrAt 4 cfg4.N = result4 V c :=
  (dat4 V c).arrAt_eq_of_cover 4 _ (fun t _ => flushed4 V c t) cover4

end Cert.KernelIdeal.Whole

end
-- ==== Proof.KernelValue.lean ====
/-
  The idealized kernel's result as one function of the launch arrays.

  Along the chain of buffer contents from the launch to the return, a dozen buffers are written at most once, before the
  first stage, and then only read: the message sources, targets and weights (formed by the first host stretch from the
  edge list) and the weight and bias arguments (never written). A stage leaves every buffer but its output array as it
  found it, and no later host stretch writes one of the twelve, so each still holds at its place of use what it held
  after the first stretch. Beside them, each stage's output array is the stage's function of the arrays it finds
  (product; bias, rectifier, product; …; log-softmax), and each later host stretch turns that output into its
  normalised neighbourhood sum. Composing the steps gives the result buffer's final contents: the network of the
  launch arrays.
-/
import proofs.«168274_j26371099198062_1_alg».proof.Proof.Gen.KernelIdeal.Frame
import proofs.«168274_j26371099198062_1_alg».proof.Proof.Network
import proofs.«168274_j26371099198062_1_alg».proof.Proof.WholeProduct
import proofs.«168274_j26371099198062_1_alg».proof.Proof.WholeHidden1
import proofs.«168274_j26371099198062_1_alg».proof.Proof.WholeHidden2
import proofs.«168274_j26371099198062_1_alg».proof.Proof.WholeHidden3
import proofs.«168274_j26371099198062_1_alg».proof.Proof.WholeOutput
import Idealize.ShloMosaic.Lib.ValueLayout

set_option maxRecDepth 16384

noncomputable section

namespace Cert.KernelIdeal.Chain

open Cert.KernelIdeal Cert.KernelIdeal.Gen
open Idealize.ShloMosaic Idealize.ShloMosaic.ValueIdx Idealize.ShloMosaic.TcCoe Idealize.SL.Sem Idealize.ShloMosaic.StableHlo

variable (m : (ℓ : Loc nD τ sig) → Buf (Elt Ideal) ℓ) (ρ : Dev nD → PrngReg) (c : Dev nD)

/-! ## The read-only buffers -/

/-- Written by the first host stretch or never, and only read from the first stage on. -/
def readOnly : List (Ref sig .tc) :=
  [main_v3, main_v6, main_v26, main_arg3, main_arg4, main_arg5, main_arg6, main_arg7, main_arg8, main_arg9, main_arg10, main_arg11]

/-- None of them is a stage's output array. -/
theorem not_output : ∀ b ∈ readOnly, b ≠ main_v27 ∧ b ≠ main_v42 ∧ b ≠ main_v57 ∧ b ≠ main_v72 ∧ b ≠ main_v88 := by decide

/-! ### A stage leaves every buffer but its output array as it found it -/

theorem stage0_keeps (b : Ref sig .tc) (hb : b ≠ main_v27) : W2 m ρ c (Proc.devRef .tc b) = W1 m ρ c (Proc.devRef .tc b) := by
  by_cases h0 : b = main_arg0
  · rw [h0]; exact (W2_arr m ρ c 0).trans (((dat0 (V1 m ρ) c).arrAt_in 0 rfl _).trans (A_eq0 (V1 m ρ) c 0))
  by_cases h1 : b = main_arg2
  · rw [h1]; exact (W2_arr m ρ c 1).trans (((dat0 (V1 m ρ) c).arrAt_in 1 rfl _).trans (A_eq0 (V1 m ρ) c 1))
  refine W2_of_ne m ρ c b fun w e => ?_
  match w with
  | ⟨0, _⟩ => exact h0 e.symm
  | ⟨1, _⟩ => exact h1 e.symm
  | ⟨2, _⟩ => exact hb e.symm

theorem stage1_keeps (b : Ref sig .tc) (hb : b ≠ main_v42) : W4 m ρ c (Proc.devRef .tc b) = W3 m ρ c (Proc.devRef .tc b) := by
  by_cases h0 : b = main_v40
  · rw [h0]; exact (W4_arr m ρ c 0).trans (((dat1 (V3 m ρ) c).arrAt_in 0 rfl _).trans (A_eq1 (V3 m ρ) c 0))
  by_cases h1 : b = main_v41
  · rw [h1]; exact (W4_arr m ρ c 1).trans (((dat1 (V3 m ρ) c).arrAt_in 1 rfl _).trans (A_eq1 (V3 m ρ) c 1))
  by_cases h2 : b = main_arg4
  · rw [h2]; exact (W4_arr m ρ c 2).trans (((dat1 (V3 m ρ) c).arrAt_in 2 rfl _).trans (A_eq1 (V3 m ρ) c 2))
  refine W4_of_ne m ρ c b fun w e => ?_
  match w with
  | ⟨0, _⟩ => exact h0 e.symm
  | ⟨1, _⟩ => exact h1 e.symm
  | ⟨2, _⟩ => exact h2 e.symm
  | ⟨3, _⟩ => exact hb e.symm

theorem stage2_keeps (b : Ref sig .tc) (hb : b ≠ main_v57) : W6 m ρ c (Proc.devRef .tc b) = W5 m ρ c (Proc.devRef .tc b) := by
  by_cases h0 : b = main_v55
  · rw [h0]; exact (W6_arr m ρ c 0).trans (((dat2 (V5 m ρ) c).arrAt_in 0 rfl _).trans (A_eq2 (V5 m ρ) c 0))
  by_cases h1 : b = main_v56
  · rw [h1]; exact (W6_arr m ρ c 1).trans (((dat2 (V5 m ρ) c).arrAt_in 1 rfl _).trans (A_eq2 (V5 m ρ) c 1))
  by_cases h2 : b = main_arg6
  · rw [h2]; exact (W6_arr m ρ c 2).trans (((dat2 (V5 m ρ) c).arrAt_in 2 rfl _).trans (A_eq2 (V5 m ρ) c 2))
  refine W6_of_ne m ρ c b fun w e => ?_
  match w with
  | ⟨0, _⟩ => exact h0 e.symm
  | ⟨1, _⟩ => exact h1 e.symm
  | ⟨2, _⟩ => exact h2 e.symm
  | ⟨3, _⟩ => exact hb e.symm

theorem stage3_keeps (b : Ref sig .tc) (hb : b ≠ main_v72) : W8 m ρ c (Proc.devRef .tc b) = W7 m ρ c (Proc.devRef .tc b) := by
  by_cases h0 : b = main_v70
  · rw [h0]; exact (W8_arr m ρ c 0).trans (((dat3 (V7 m ρ) c).arrAt_in 0 rfl _).trans (A_eq3 (V7 m ρ) c 0))
  by_cases h1 : b = main_v71
  · rw [h1]; exact (W8_arr m ρ c 1).trans (((dat3 (V7 m ρ) c).arrAt_in 1 rfl _).trans (A_eq3 (V7 m ρ) c 1))
  by_cases h2 : b = main_arg8
  · rw [h2]; exact (W8_arr m ρ c 2).trans (((dat3 (V7 m ρ) c).arrAt_in 2 rfl _).trans (A_eq3 (V7 m ρ) c 2))
  refine W8_of_ne m ρ c b fun w e => ?_
  match w with
  | ⟨0, _⟩ => exact h0 e.symm
  | ⟨1, _⟩ => exact h1 e.symm
  | ⟨2, _⟩ => exact h2 e.symm
  | ⟨3, _⟩ => exact hb e.symm

/-! ### No later host stretch writes a read-only buffer -/

theorem host1_keeps (W : Valuation τ sig (Elt Ideal)) : ∀ b ∈ readOnly, StableHlo.after (hostOps1 (F := Ideal)) W (Proc.devRef .tc b) = W (Proc.devRef .tc b) := by
  intro b hb
  simp only [readOnly, List.mem_cons, List.mem_nil_iff, or_false] at hb
  rcases hb with rfl | rfl | rfl | rfl | rfl | rfl | rfl | rfl | rfl | rfl | rfl | rfl <;> after_results_simp

theorem host2_keeps (W : Valuation τ sig (Elt Ideal)) : ∀ b ∈ readOnly, StableHlo.after (hostOps2 (F := Ideal)) W (Proc.devRef .tc b) = W (Proc.devRef .tc b) := by
  intro b hb
  simp only [readOnly, List.mem_cons, List.mem_nil_iff, or_false] at hb
  rcases hb with rfl | rfl | rfl | rfl | rfl | rfl | rfl | rfl | rfl | rfl | rfl | rfl <;> after_results_simp

theorem host3_keeps (W : Valuation τ sig (Elt Ideal)) : ∀ b ∈ readOnly, StableHlo.after (hostOps3 (F := Ideal)) W (Proc.devRef .tc b) = W (Proc.devRef .tc b) := by
  intro b hb
  simp only [readOnly, List.mem_cons, List.mem_nil_iff, or_false] at hb
  rcases hb with rfl | rfl | rfl | rfl | rfl | rfl | rfl | rfl | rfl | rfl | rfl | rfl <;> after_results_simp

theorem host4_keeps (W : Valuation τ sig (Elt Ideal)) : ∀ b ∈ readOnly, StableHlo.after (hostOps4 (F := Ideal)) W (Proc.devRef .tc b) = W (Proc.devRef .tc b) := by
  intro b hb
  simp only [readOnly, List.mem_cons, List.mem_nil_iff, or_false] at hb
  rcases hb with rfl | rfl | rfl | rfl | rfl | rfl | rfl | rfl | rfl | rfl | rfl | rfl <;> after_results_simp

/-! ### So each holds, at every later boundary, what it held after the first host stretch -/

theorem kept2 (b : Ref sig .tc) (hb : b ∈ readOnly) : W2 m ρ c (Proc.devRef .tc b) = W1 m ρ c (Proc.devRef .tc b) :=
  stage0_keeps m ρ c b (not_output b hb).1
theorem kept3 (b : Ref sig .tc) (hb : b ∈ readOnly) : W3 m ρ c (Proc.devRef .tc b) = W1 m ρ c (Proc.devRef .tc b) :=
  (host1_keeps (W2 m ρ c) b hb).trans (kept2 m ρ c b hb)
theorem kept4 (b : Ref sig .tc) (hb : b ∈ readOnly) : W4 m ρ c (Proc.devRef .tc b) = W1 m ρ c (Proc.devRef .tc b) :=
  (stage1_keeps m ρ c b (not_output b hb).2.1).trans (kept3 m ρ c b hb)
theorem kept5 (b : Ref sig .tc) (hb : b ∈ readOnly) : W5 m ρ c (Proc.devRef .tc b) = W1 m ρ c (Proc.devRef .tc b) :=
  (host2_keeps (W4 m ρ c) b hb).trans (kept4 m ρ c b hb)
theorem kept6 (b : Ref sig .tc) (hb : b ∈ readOnly) : W6 m ρ c (Proc.devRef .tc b) = W1 m ρ c (Proc.devRef .tc b) :=
  (stage2_keeps m ρ c b (not_output b hb).2.2.1).trans (kept5 m ρ c b hb)
theorem kept7 (b : Ref sig .tc) (hb : b ∈ readOnly) : W7 m ρ c (Proc.devRef .tc b) = W1 m ρ c (Proc.devRef .tc b) :=
  (host3_keeps (W6 m ρ c) b hb).trans (kept6 m ρ c b hb)
theorem kept8 (b : Ref sig .tc) (hb : b ∈ readOnly) : W8 m ρ c (Proc.devRef .tc b) = W1 m ρ c (Proc.devRef .tc b) :=
  (stage3_keeps m ρ c b (not_output b hb).2.2.2.1).trans (kept7 m ρ c b hb)
theorem kept9 (b : Ref sig .tc) (hb : b ∈ readOnly) : W9 m ρ c (Proc.devRef .tc b) = W1 m ρ c (Proc.devRef .tc b) :=
  (host4_keeps (W8 m ρ c) b hb).trans (kept8 m ρ c b hb)

/-! ### What they hold after the first host stretch -/

theorem first_sources : W1 m ρ c (Proc.devRef .tc main_v3) = Graph.sources (m ((c : Thread nD τ).loc main_arg1)) := Graph.stretch0_sources (W0 m ρ c)
theorem first_targets : W1 m ρ c (Proc.devRef .tc main_v6) = Graph.targets (m ((c : Thread nD τ).loc main_arg1)) := Graph.stretch0_targets (W0 m ρ c)
theorem first_weights : W1 m ρ c (Proc.devRef .tc main_v26) = Graph.weights (m ((c : Thread nD τ).loc main_arg1)) := Graph.stretch0_weights (W0 m ρ c)
theorem first_arg0 : W1 m ρ c (Proc.devRef .tc main_arg0) = (m ((c : Thread nD τ).loc main_arg0)) := by
  show StableHlo.after (hostOps0 (F := Ideal)) (W0 m ρ c) (Proc.devRef .tc main_arg0) = _
  after_results_simp
theorem first_arg2 : W1 m ρ c (Proc.devRef .tc main_arg2) = (m ((c : Thread nD τ).loc main_arg2)) := by
  show StableHlo.after (hostOps0 (F := Ideal)) (W0 m ρ c) (Proc.devRef .tc main_arg2) = _
  after_results_simp
theorem first_arg3 : W1 m ρ c (Proc.devRef .tc main_arg3) = (m ((c : Thread nD τ).loc main_arg3)) := by
  show StableHlo.after (hostOps0 (F := Ideal)) (W0 m ρ c) (Proc.devRef .tc main_arg3) = _
  after_results_simp
theorem first_arg4 : W1 m ρ c (Proc.devRef .tc main_arg4) = (m ((c : Thread nD τ).loc main_arg4)) := by
  show StableHlo.after (hostOps0 (F := Ideal)) (W0 m ρ c) (Proc.devRef .tc main_arg4) = _
  after_results_simp
theorem first_arg5 : W1 m ρ c (Proc.devRef .tc main_arg5) = (m ((c : Thread nD τ).loc main_arg5)) := by
  show StableHlo.after (hostOps0 (F := Ideal)) (W0 m ρ c) (Proc.devRef .tc main_arg5) = _
  after_results_simp
theorem first_arg6 : W1 m ρ c (Proc.devRef .tc main_arg6) = (m ((c : Thread nD τ).loc main_arg6)) := by
  show StableHlo.after (hostOps0 (F := Ideal)) (W0 m ρ c) (Proc.devRef .tc main_arg6) = _
  after_results_simp
theorem first_arg7 : W1 m ρ c (Proc.devRef .tc main_arg7) = (m ((c : Thread nD τ).loc main_arg7)) := by
  show StableHlo.after (hostOps0 (F := Ideal)) (W0 m ρ c) (Proc.devRef .tc main_arg7) = _
  after_results_simp
theorem first_arg8 : W1 m ρ c (Proc.devRef .tc main_arg8) = (m ((c : Thread nD τ).loc main_arg8)) := by
  show StableHlo.after (hostOps0 (F := Ideal)) (W0 m ρ c) (Proc.devRef .tc main_arg8) = _
  after_results_simp
theorem first_arg9 : W1 m ρ c (Proc.devRef .tc main_arg9) = (m ((c : Thread nD τ).loc main_arg9)) := by
  show StableHlo.after (hostOps0 (F := Ideal)) (W0 m ρ c) (Proc.devRef .tc main_arg9) = _
  after_results_simp
theorem first_arg10 : W1 m ρ c (Proc.devRef .tc main_arg10) = (m ((c : Thread nD τ).loc main_arg10)) := by
  show StableHlo.after (hostOps0 (F := Ideal)) (W0 m ρ c) (Proc.devRef .tc main_arg10) = _
  after_results_simp
theorem first_arg11 : W1 m ρ c (Proc.devRef .tc main_arg11) = (m ((c : Thread nD τ).loc main_arg11)) := by
  show StableHlo.after (hostOps0 (F := Ideal)) (W0 m ρ c) (Proc.devRef .tc main_arg11) = _
  after_results_simp

/-! ## The stages' and the sums' values -/

/-- A vector laid out as a one-row matrix, read back along its row, is the vector. -/
theorem row_of_oneRow (b : (⟨S96, .f32⟩ : BufTy).Contents (Elt Ideal)) :
    (fun k : S96.Idx => Graph.oneRow b (ix2 (0 : Fin 1) (k 0))) = b := by
  funext k
  refine (shapeCast_a_1a_apply (a := 96) b _ (0 : Fin 1) (k 0)).trans ?_
  exact congrArg b (eq_ix1 k).symm
theorem row_of_oneRow4 (b : (⟨S4, .f32⟩ : BufTy).Contents (Elt Ideal)) :
    (fun k : S4.Idx => Graph.oneRow4 b (ix2 (0 : Fin 1) (k 0))) = b := by
  funext k
  refine (shapeCast_a_1a_apply (a := 4) b _ (0 : Fin 1) (k 0)).trans ?_
  exact congrArg b (eq_ix1 k).symm

/-- Stage 0 leaves the product of the input and the first weights. -/
theorem out0 : W2 m ρ c (Proc.devRef .tc main_v27) = Gcn.product (m ((c : Thread nD τ).loc main_arg0)) (m ((c : Thread nD τ).loc main_arg2)) := by
  refine (W2_arr m ρ c 2).trans ((Whole.array0 (V1 m ρ) c).trans ?_)
  show Gcn.product (n := 50000) (W1 m ρ c (Proc.devRef .tc main_arg0)) (W1 m ρ c (Proc.devRef .tc main_arg2)) = _
  rw [first_arg0, first_arg2]

/-- Host stretch 1 leaves the neighbourhood sum of stage 0's output. -/
theorem sum1 : W3 m ρ c (Proc.devRef .tc main_v40) = Gcn.neighbourSum (m ((c : Thread nD τ).loc main_arg1)) (Gcn.product (m ((c : Thread nD τ).loc main_arg0)) (m ((c : Thread nD τ).loc main_arg2))) := by
  refine (Graph.stretch1_sum (W2 m ρ c)).trans ?_
  rw [kept2 m ρ c main_v3 (by decide : main_v3 ∈ readOnly), kept2 m ρ c main_v6 (by decide : main_v6 ∈ readOnly), kept2 m ρ c main_v26 (by decide : main_v26 ∈ readOnly),
    first_sources, first_targets, first_weights, out0]
  rfl

theorem bias1 : W3 m ρ c (Proc.devRef .tc main_v41) = Graph.oneRow (m ((c : Thread nD τ).loc main_arg3)) := by
  refine (Graph.stretch1_bias (W2 m ρ c)).trans ?_
  rw [kept2 m ρ c main_arg3 (by decide : main_arg3 ∈ readOnly), first_arg3]

/-- Stage 1 leaves bias, rectifier and product of the sum before it. -/
theorem out1 : W4 m ρ c (Proc.devRef .tc main_v42) = Gcn.hidden (Gcn.neighbourSum (m ((c : Thread nD τ).loc main_arg1)) (Gcn.product (m ((c : Thread nD τ).loc main_arg0)) (m ((c : Thread nD τ).loc main_arg2)))) (m ((c : Thread nD τ).loc main_arg3)) (m ((c : Thread nD τ).loc main_arg4)) := by
  refine (W4_arr m ρ c 3).trans ((Whole.array1 (V3 m ρ) c).trans ?_)
  show Gcn.hidden (n := 50000) (W3 m ρ c (Proc.devRef .tc main_v40)) (fun k => W3 m ρ c (Proc.devRef .tc main_v41) (ix2 (0 : Fin 1) (k 0))) (W3 m ρ c (Proc.devRef .tc main_arg4)) = _
  rw [sum1, bias1, kept3 m ρ c main_arg4 (by decide : main_arg4 ∈ readOnly), first_arg4, row_of_oneRow]

/-- Host stretch 2 leaves the neighbourhood sum of stage 1's output. -/
theorem sum2 : W5 m ρ c (Proc.devRef .tc main_v55) = Gcn.neighbourSum (m ((c : Thread nD τ).loc main_arg1)) (Gcn.hidden (Gcn.neighbourSum (m ((c : Thread nD τ).loc main_arg1)) (Gcn.product (m ((c : Thread nD τ).loc main_arg0)) (m ((c : Thread nD τ).loc main_arg2)))) (m ((c : Thread nD τ).loc main_arg3)) (m ((c : Thread nD τ).loc main_arg4))) := by
  refine (Graph.stretch2_sum (W4 m ρ c)).trans ?_
  rw [kept4 m ρ c main_v3 (by decide : main_v3 ∈ readOnly), kept4 m ρ c main_v6 (by decide : main_v6 ∈ readOnly), kept4 m ρ c main_v26 (by decide : main_v26 ∈ readOnly),
    first_sources, first_targets, first_weights, out1]
  rfl

theorem bias2 : W5 m ρ c (Proc.devRef .tc main_v56) = Graph.oneRow (m ((c : Thread nD τ).loc main_arg5)) := by
  refine (Graph.stretch2_bias (W4 m ρ c)).trans ?_
  rw [kept4 m ρ c main_arg5 (by decide : main_arg5 ∈ readOnly), first_arg5]

/-- Stage 2 leaves bias, rectifier and product of the sum before it. -/
theorem out2 : W6 m ρ c (Proc.devRef .tc main_v57) = Gcn.hidden (Gcn.neighbourSum (m ((c : Thread nD τ).loc main_arg1)) (Gcn.hidden (Gcn.neighbourSum (m ((c : Thread nD τ).loc main_arg1)) (Gcn.product (m ((c : Thread nD τ).loc main_arg0)) (m ((c : Thread nD τ).loc main_arg2)))) (m ((c : Thread nD τ).loc main_arg3)) (m ((c : Thread nD τ).loc main_arg4)))) (m ((c : Thread nD τ).loc main_arg5)) (m ((c : Thread nD τ).loc main_arg6)) := by
  refine (W6_arr m ρ c 3).trans ((Whole.array2 (V5 m ρ) c).trans ?_)
  show Gcn.hidden (n := 50000) (W5 m ρ c (Proc.devRef .tc main_v55)) (fun k => W5 m ρ c (Proc.devRef .tc main_v56) (ix2 (0 : Fin 1) (k 0))) (W5 m ρ c (Proc.devRef .tc main_arg6)) = _
  rw [sum2, bias2, kept5 m ρ c main_arg6 (by decide : main_arg6 ∈ readOnly), first_arg6, row_of_oneRow]

/-- Host stretch 3 leaves the neighbourhood sum of stage 2's output. -/
theorem sum3 : W7 m ρ c (Proc.devRef .tc main_v70) = Gcn.neighbourSum (m ((c : Thread nD τ).loc main_arg1)) (Gcn.hidden (Gcn.neighbourSum (m ((c : Thread nD τ).loc main_arg1)) (Gcn.hidden (Gcn.neighbourSum (m ((c : Thread nD τ).loc main_arg1)) (Gcn.product (m ((c : Thread nD τ).loc main_arg0)) (m ((c : Thread nD τ).loc main_arg2)))) (m ((c : Thread nD τ).loc main_arg3)) (m ((c : Thread nD τ).loc main_arg4)))) (m ((c : Thread nD τ).loc main_arg5)) (m ((c : Thread nD τ).loc main_arg6))) := by
  refine (Graph.stretch3_sum (W6 m ρ c)).trans ?_
  rw [kept6 m ρ c main_v3 (by decide : main_v3 ∈ readOnly), kept6 m ρ c main_v6 (by decide : main_v6 ∈ readOnly), kept6 m ρ c main_v26 (by decide : main_v26 ∈ readOnly),
    first_sources, first_targets, first_weights, out2]
  rfl

theorem bias3 : W7 m ρ c (Proc.devRef .tc main_v71) = Graph.oneRow (m ((c : Thread nD τ).loc main_arg7)) := by
  refine (Graph.stretch3_bias (W6 m ρ c)).trans ?_
  rw [kept6 m ρ c main_arg7 (by decide : main_arg7 ∈ readOnly), first_arg7]

/-- Stage 3 leaves bias, rectifier and product of the sum before it. -/
theorem out3 : W8 m ρ c (Proc.devRef .tc main_v72) = Gcn.hidden (Gcn.neighbourSum (m ((c : Thread nD τ).loc main_arg1)) (Gcn.hidden (Gcn.neighbourSum (m ((c : Thread nD τ).loc main_arg1)) (Gcn.hidden (Gcn.neighbourSum (m ((c : Thread nD τ).loc main_arg1)) (Gcn.product (m ((c : Thread nD τ).loc main_arg0)) (m ((c : Thread nD τ).loc main_arg2)))) (m ((c : Thread nD τ).loc main_arg3)) (m ((c : Thread nD τ).loc main_arg4)))) (m ((c : Thread nD τ).loc main_arg5)) (m ((c : Thread nD τ).loc main_arg6)))) (m ((c : Thread nD τ).loc main_arg7)) (m ((c : Thread nD τ).loc main_arg8)) := by
  refine (W8_arr m ρ c 3).trans ((Whole.array3 (V7 m ρ) c).trans ?_)
  show Gcn.hidden (n := 50000) (W7 m ρ c (Proc.devRef .tc main_v70)) (fun k => W7 m ρ c (Proc.devRef .tc main_v71) (ix2 (0 : Fin 1) (k 0))) (W7 m ρ c (Proc.devRef .tc main_arg8)) = _
  rw [sum3, bias3, kept7 m ρ c main_arg8 (by decide : main_arg8 ∈ readOnly), first_arg8, row_of_oneRow]

/-- Host stretch 4 leaves the neighbourhood sum of stage 3's output. -/
theorem sum4 : W9 m ρ c (Proc.devRef .tc main_v85) = Gcn.neighbourSum (m ((c : Thread nD τ).loc main_arg1)) (Gcn.hidden (Gcn.neighbourSum (m ((c : Thread nD τ).loc main_arg1)) (Gcn.hidden (Gcn.neighbourSum (m ((c : Thread nD τ).loc main_arg1)) (Gcn.hidden (Gcn.neighbourSum (m ((c : Thread nD τ).loc main_arg1)) (Gcn.product (m ((c : Thread nD τ).loc main_arg0)) (m ((c : Thread nD τ).loc main_arg2)))) (m ((c : Thread nD τ).loc main_arg3)) (m ((c : Thread nD τ).loc main_arg4)))) (m ((c : Thread nD τ).loc main_arg5)) (m ((c : Thread nD τ).loc main_arg6)))) (m ((c : Thread nD τ).loc main_arg7)) (m ((c : Thread nD τ).loc main_arg8))) := by
  refine (Graph.stretch4_sum (W8 m ρ c)).trans ?_
  rw [kept8 m ρ c main_v3 (by decide : main_v3 ∈ readOnly), kept8 m ρ c main_v6 (by decide : main_v6 ∈ readOnly), kept8 m ρ c main_v26 (by decide : main_v26 ∈ readOnly),
    first_sources, first_targets, first_weights, out3]
  rfl

theorem bias4 : W9 m ρ c (Proc.devRef .tc main_v86) = Graph.oneRow (m ((c : Thread nD τ).loc main_arg9)) := by
  refine (Graph.stretch4_bias (W8 m ρ c)).trans ?_
  rw [kept8 m ρ c main_arg9 (by decide : main_arg9 ∈ readOnly), first_arg9]
theorem bias4' : W9 m ρ c (Proc.devRef .tc main_v87) = Graph.oneRow4 (m ((c : Thread nD τ).loc main_arg11)) := by
  refine (Graph.stretch4_bias4 (W8 m ρ c)).trans ?_
  rw [kept8 m ρ c main_arg11 (by decide : main_arg11 ∈ readOnly), first_arg11]

/-- THE RESULT: the last stage leaves the network of the launch arrays. -/
theorem result : W10 m ρ c (Proc.devRef .tc main_v88)
    = Gcn.network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W10_arr m ρ c 4).trans ((Whole.array4 (V9 m ρ) c).trans ?_)
  show Gcn.output (n := 50000) (W9 m ρ c (Proc.devRef .tc main_v85)) (fun k => W9 m ρ c (Proc.devRef .tc main_v86) (ix2 (0 : Fin 1) (k 0))) (W9 m ρ c (Proc.devRef .tc main_arg10))
      (fun k => W9 m ρ c (Proc.devRef .tc main_v87) (ix2 (0 : Fin 1) (k 0))) = _
  rw [sum4, bias4, bias4', kept9 m ρ c main_arg10 (by decide : main_arg10 ∈ readOnly), first_arg10, row_of_oneRow, row_of_oneRow4]
  rfl

end Cert.KernelIdeal.Chain

end
-- ==== Proof.LibHostLaneMax.lean ====
/-
  The host's maximum along the lanes of a matrix, read at a row.

  A host reduction with \`max\` over axis 1 of an \`[a, b]\` array (as a softmax over the last axis of a matrix lowers)
  reads, at row \`p\`, the fold of \`max\`, from the initial value, over \`c : Fin b\` of the entries \`(p, c)\`.
  A general fact about shapes \`[a, b]\` and \`[a]\` at the ideal values: nothing here mentions a program.
-/
import Idealize.ShloMosaic.PureOps.Ideal.Laws
import Idealize.ShloMosaic.Lib.ValueIdx

namespace Cert.HostLaneMax

open Idealize.ShloMosaic Idealize.ShloMosaic.ValueIdx

variable {φ : FTy}

/-- The host's maximum over the LAST axis of an \`[a, b]\` array, at row \`p\`: the fold of \`max\`, from the initial value,
    over \`c : Fin b\` of the entries \`(p, c)\`. -/
theorem hostLaneMax_apply {a b : ℕ} {u : Shape} (x : (⟨2, ![a, b]⟩ : Shape).Idx → Ideal φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := φ)) x init h' hu (ix1 p)
      = (Finset.univ : Finset (Fin b)).fold max (init (Shape.Idx.first hu)) (fun c => x (ix2 p c)) := by
  refine (Host.reduce_eq_fold_single (FloatOps.maximumf (F := Ideal) (φ := φ)) x init h' h hu (ix1 p)).trans ?_
  show (Finset.univ : Finset (Fin b)).fold max (init (Shape.Idx.first hu)) (fun c => x (h.lift (ix1 p) c)) = _
  refine congrArg (fun f => (Finset.univ : Finset (Fin b)).fold max (init (Shape.Idx.first hu)) f) (funext fun c => ?_)
  exact congrArg x (funext fun ax => Fin.ext (by match ax with | ⟨0, _⟩ => rfl | ⟨1, _⟩ => rfl))

end Cert.HostLaneMax
-- ==== Proof.RefValue.lean ====
/-
  The reference program's result as the same function of its arrays.

  The reference spells every dense stage over whole arrays: a matrix product on 50000 rows, a bias laid along the rows,
  a rectifier, and log-softmax along the last axis. Read entry by entry these are the products, biases and maxima of the
  network's definition; the normalised neighbourhood sum between the stages is, operation for operation, the one the
  kernel program applies, so it is recognised, never opened.
-/
import proofs.«168274_j26371099198062_1_alg».proof.Proof.RefRead
import proofs.«168274_j26371099198062_1_alg».proof.Proof.Network
import proofs.«168274_j26371099198062_1_alg».proof.Proof.LibHostLaneMax
import Idealize.ShloMosaic.Lib.ValueIdx
import Idealize.ShloMosaic.Lib.Pipeline.Value
import Idealize.ShloMosaic.PureOps.Ideal.Laws

set_option maxRecDepth 16384

noncomputable section

namespace Cert.ReferenceIdeal.RefValue

open Cert.ReferenceIdeal Cert.ReferenceIdeal.Gen Cert.ReferenceIdeal.ReadP
open Idealize.ShloMosaic Idealize.ShloMosaic.ValueIdx

/-! ## The two whole-array products, at an entry -/

theorem dot96_apply (l : FVec Ideal S50000x96 .f32) (r : FVec Ideal S96x96 .f32) (p : Fin 50000) (q : Fin 96) :
    Host.dotGeneral (F := Ideal) dot_S50000x96_S96x96_S50000x96_1_0_0_1_n_n none l r (ix2 p q) = Gcn.dot (fun k : Fin 96 => l (ix2 p k)) (fun k : Fin 96 => r (ix2 k q)) := by
  refine (val_main_v28_apply l r (ix2 p q)).trans ?_
  unfold Gcn.dot
  refine Finset.sum_congr rfl fun k _ => ?_
  have el : lidx_main_v28 (ix2 p q) k = ix2 p k := funext fun a => Fin.ext (by match a with | ⟨0, _⟩ => rfl | ⟨1, _⟩ => rfl)
  have er : ridx_main_v28 (ix2 p q) k = ix2 k q := funext fun a => Fin.ext (by match a with | ⟨0, _⟩ => rfl | ⟨1, _⟩ => rfl)
  rw [el, er]

theorem dot4_apply (l : FVec Ideal S50000x96 .f32) (r : FVec Ideal S96x4 .f32) (p : Fin 50000) (q : Fin 4) :
    Host.dotGeneral (F := Ideal) dot_S50000x96_S96x4_S50000x4_1_0_0_1_n_n none l r (ix2 p q) = Gcn.dot (fun k : Fin 96 => l (ix2 p k)) (fun k : Fin 96 => r (ix2 k q)) := by
  simp only [Host.dotGeneral]
  rw [Ideal.dotGeneral_apply, ← Equiv.sum_comp (contrEquiv1 dot_S50000x96_S96x4_S50000x4_1_0_0_1_n_n 96 rfl rfl).symm]
  unfold Gcn.dot
  refine Finset.sum_congr rfl fun k _ => ?_
  have hk := contrEquiv1_symm_val dot_S50000x96_S96x4_S50000x4_1_0_0_1_n_n 96 rfl rfl k
  have el : dot_S50000x96_S96x4_S50000x4_1_0_0_1_n_n.lhsIdx (ix2 p q) ((contrEquiv1 dot_S50000x96_S96x4_S50000x4_1_0_0_1_n_n 96 rfl rfl).symm k) = ix2 p k := funext fun a => Fin.ext (by
    match a with
    | ⟨0, _⟩ => exact lhs_main_v96_0 _ _
    | ⟨1, _⟩ => exact (lhs_main_v96_1 _ _).trans hk)
  have er : dot_S50000x96_S96x4_S50000x4_1_0_0_1_n_n.rhsIdx (ix2 p q) ((contrEquiv1 dot_S50000x96_S96x4_S50000x4_1_0_0_1_n_n 96 rfl rfl).symm k) = ix2 k q := funext fun a => Fin.ext (by
    match a with
    | ⟨0, _⟩ => exact (rhs_main_v96_0 _ _).trans hk
    | ⟨1, _⟩ => exact rhs_main_v96_1 _ _)
  rw [el, er]

/-! ## A bias laid along the rows, and the rectifier's zero -/

theorem biasRows_apply (b : FVec Ideal S96 .f32) (p : Fin 50000) (k : Fin 96) :
    broadcastInDim S50000x96 ![0, 1] bcast_S1x96_S50000x96_0_1 (broadcastInDim S1x96 ![1] bcast_S96_S1x96_1 b) (ix2 p k) = b (ix1 k) := by
  refine (val_main_v42_apply (F := Ideal) b (ix2 p k)).trans ((val_main_v41_apply (F := Ideal) b _).trans ?_)
  exact congrArg b (funext fun a => Fin.ext (by match a with | ⟨0, _⟩ => rfl))

theorem biasRows4_apply (b : FVec Ideal S4 .f32) (p : Fin 50000) (q : Fin 4) :
    broadcastInDim S50000x4 ![0, 1] bcast_S1x4_S50000x4_0_1 (broadcastInDim S1x4 ![1] bcast_S4_S1x4_1 b) (ix2 p q) = b (ix1 q) := by
  refine (val_main_v98_apply (F := Ideal) b (ix2 p q)).trans ((val_main_v97_apply (F := Ideal) b _).trans ?_)
  exact congrArg b (funext fun a => Fin.ext (by match a with | ⟨0, _⟩ => rfl))

/-- The whole-array bias and rectifier, at an entry. -/
theorem rectified_apply (a : FVec Ideal S50000x96 .f32) (b : FVec Ideal S96 .f32) (p : Fin 50000) (k : Fin 96) :
    maximumf (addf a (broadcastInDim S50000x96 ![0, 1] bcast_S1x96_S50000x96_0_1 (broadcastInDim S1x96 ![1] bcast_S96_S1x96_1 b)))
        (broadcastInDim S50000x96 ![] bcast_S_S50000x96 (constant (F := Ideal) S_ .f32 0x00000000#32)) (ix2 p k)
      = Gcn.rectified (a (ix2 p k)) (b (ix1 k)) := by
  show max (a (ix2 p k) + broadcastInDim S50000x96 ![0, 1] bcast_S1x96_S50000x96_0_1 (broadcastInDim S1x96 ![1] bcast_S96_S1x96_1 b) (ix2 p k))
      (val_main_call0_v0 (F := Ideal) (ix2 p k)) = _
  rw [biasRows_apply, val_main_call0_v0_apply, val_main_call0_cst_apply]
  rfl

/-! ## The dense stages -/

theorem product_eq (x : FVec Ideal S50000x96 .f32) (W : FVec Ideal S96x96 .f32) :
    Host.dotGeneral (F := Ideal) dot_S50000x96_S96x96_S50000x96_1_0_0_1_n_n none x W = Gcn.product (n := 50000) x W := by
  funext i
  obtain ⟨p, q, rfl⟩ : ∃ (p : Fin 50000) (q : Fin 96), i = (ix2 p q : S50000x96.Idx) := ⟨i 0, i 1, eq_ix2 (n0 := 50000) (n1 := 96) i⟩
  exact dot96_apply x W p q

theorem hidden_eq (a : FVec Ideal S50000x96 .f32) (b : FVec Ideal S96 .f32) (W : FVec Ideal S96x96 .f32) :
    Host.dotGeneral (F := Ideal) dot_S50000x96_S96x96_S50000x96_1_0_0_1_n_n none
        (maximumf (addf a (broadcastInDim S50000x96 ![0, 1] bcast_S1x96_S50000x96_0_1 (broadcastInDim S1x96 ![1] bcast_S96_S1x96_1 b)))
          (broadcastInDim S50000x96 ![] bcast_S_S50000x96 (constant (F := Ideal) S_ .f32 0x00000000#32))) W
      = Gcn.hidden (n := 50000) a b W := by
  funext i
  obtain ⟨p, q, rfl⟩ : ∃ (p : Fin 50000) (q : Fin 96), i = (ix2 p q : S50000x96.Idx) := ⟨i 0, i 1, eq_ix2 (n0 := 50000) (n1 := 96) i⟩
  refine (dot96_apply _ W p q).trans ?_
  exact congrArg₂ (Gcn.dot (K := 96)) (funext fun k => rectified_apply a b p k) rfl

/-! ## Log-softmax along the last axis -/

/-- A per-row value spread over the row's four lanes. -/
theorem spread_apply (y : FVec Ideal S50000x1 .f32) (p : Fin 50000) (q : Fin 4) :
    broadcastInDim S50000x4 ![0, 1] bcast_S50000x1_S50000x4_0_1 y (ix2 p q) = y (ix2 p (0 : Fin 1)) :=
  broadcastInDim_apply _ bcast_S50000x1_S50000x4_0_1 y (ix2 p q) (ix2 p (0 : Fin 1)) (fun a => match a with
    | ⟨0, _⟩ => by show p.val = if (50000 : Nat) = 1 then 0 else p.val; rw [if_neg (by decide)]
    | ⟨1, _⟩ => by show 0 = if (1 : Nat) = 1 then 0 else q.val; rw [if_pos rfl])

/-- A vector as a one-lane column. -/
theorem column_apply (v : FVec Ideal S50000 .f32) (p : Fin 50000) :
    broadcastInDim S50000x1 ![0] bcast_S50000_S50000x1_0 v (ix2 p (0 : Fin 1)) = v (ix1 p) :=
  broadcastInDim_apply _ bcast_S50000_S50000x1_0 v (ix2 p (0 : Fin 1)) (ix1 p) (fun a => match a with
    | ⟨0, _⟩ => by show p.val = if (50000 : Nat) = 1 then 0 else p.val; rw [if_neg (by decide)])

/-- Each row's largest entry (guarded from below by −∞), one per row. -/
def rowMaxVec (z : FVec Ideal S50000x4 .f32) : FVec Ideal S50000 .f32 :=
  maximumf (broadcastInDim S50000 ![] bcast_S_S50000 (constant (F := Ideal) S_ .f32 0xFF800000#32))
    (Host.reduce (FloatOps.maximumf (F := Ideal) (φ := .f32)) z (constant (F := Ideal) S_ .f32 0xFF800000#32) reducesTo_S50000x4_S50000_d1 h_S_)

/-- The scores with each row's largest entry subtracted from the row. -/
def shifted (z : FVec Ideal S50000x4 .f32) : FVec Ideal S50000x4 .f32 :=
  subf z (broadcastInDim S50000x4 ![0, 1] bcast_S50000x1_S50000x4_0_1 (broadcastInDim S50000x1 ![0] bcast_S50000_S50000x1_0 (rowMaxVec z)))

/-- log-softmax of every row. -/
def logSoftmaxRows (z : FVec Ideal S50000x4 .f32) : FVec Ideal S50000x4 .f32 :=
  subf (shifted z) (broadcastInDim S50000x4 ![0, 1] bcast_S50000x1_S50000x4_0_1
    (Host.log (F := Ideal) (broadcastInDim S50000x1 ![0] bcast_S50000_S50000x1_0
      (Host.reduceAdd (F := Ideal) (Host.exp (F := Ideal) (shifted z)) (constant (F := Ideal) S_ .f32 0x00000000#32) reducesTo_S50000x4_S50000_d1 h_S_))))

theorem rowMaxVec_apply (z : FVec Ideal S50000x4 .f32) (p : Fin 50000) :
    rowMaxVec z (ix1 p) = Gcn.rowMax (fun j : Fin 4 => z (ix2 p j)) := by
  show max (broadcastInDim S50000 ![] bcast_S_S50000 (constant (F := Ideal) S_ .f32 0xFF800000#32) (ix1 p))
      (Host.reduce (FloatOps.maximumf (F := Ideal) (φ := .f32)) z (constant (F := Ideal) S_ .f32 0xFF800000#32) reducesTo_S50000x4_S50000_d1 h_S_ (ix1 p)) = _
  rw [Cert.HostLaneMax.hostLaneMax_apply z _ reducesTo_S50000x4_S50000_d1 (by decide) h_S_ p]
  rfl

theorem shifted_apply (z : FVec Ideal S50000x4 .f32) (p : Fin 50000) (q : Fin 4) :
    shifted z (ix2 p q) = z (ix2 p q) - Gcn.rowMax (fun j : Fin 4 => z (ix2 p j)) := by
  show z (ix2 p q) - broadcastInDim S50000x4 ![0, 1] bcast_S50000x1_S50000x4_0_1 (broadcastInDim S50000x1 ![0] bcast_S50000_S50000x1_0 (rowMaxVec z)) (ix2 p q) = _
  rw [spread_apply, column_apply, rowMaxVec_apply]

/-- The host's logarithm and exponential act entry by entry. -/
theorem hostLog_apply {s : Shape} (y : FVec Ideal s .f32) (i : s.Idx) : Host.log (F := Ideal) y i = Ideal.log (y i) := rfl
theorem hostExp_apply {s : Shape} (y : FVec Ideal s .f32) (i : s.Idx) : Host.exp (F := Ideal) y i = Ideal.exp (y i) := rfl

/-- The host's sum along a row's four lanes, from the zero word. -/
theorem rowSum_apply (y : FVec Ideal S50000x4 .f32) (p : Fin 50000) :
    Host.reduceAdd (F := Ideal) y (constant (F := Ideal) S_ .f32 0x00000000#32) reducesTo_S50000x4_S50000_d1 h_S_ (ix1 p) = ∑ j : Fin 4, y (ix2 p j) := by
  simp only [Host.reduceAdd, Ideal.hostReduceAdd_def]
  rw [Ideal.hostReduceAdd_single reducesTo_S50000x4_S50000_d1 (by decide)]
  show Ideal.ofBits .f32 0x00000000#32 + _ = _
  rw [Ideal.ofBits_zero_f32, zero_add]
  refine Finset.sum_congr rfl fun j _ => ?_
  exact congrArg y (funext fun a => Fin.ext (by match a with | ⟨0, _⟩ => rfl | ⟨1, _⟩ => rfl))

theorem logSoftmaxRows_apply (z : FVec Ideal S50000x4 .f32) (p : Fin 50000) (q : Fin 4) :
    logSoftmaxRows z (ix2 p q) = Gcn.logSoftmax (fun j : Fin 4 => z (ix2 p j)) q := by
  show shifted z (ix2 p q) - broadcastInDim S50000x4 ![0, 1] bcast_S50000x1_S50000x4_0_1
      (Host.log (F := Ideal) (broadcastInDim S50000x1 ![0] bcast_S50000_S50000x1_0
        (Host.reduceAdd (F := Ideal) (Host.exp (F := Ideal) (shifted z)) (constant (F := Ideal) S_ .f32 0x00000000#32) reducesTo_S50000x4_S50000_d1 h_S_))) (ix2 p q) = _
  rw [spread_apply, shifted_apply, hostLog_apply, column_apply, rowSum_apply]
  unfold Gcn.logSoftmax
  refine congrArg (fun s => (z (ix2 p q) - Gcn.rowMax (fun j : Fin 4 => z (ix2 p j))) - Ideal.log s) (Finset.sum_congr rfl fun j _ => ?_)
  rw [hostExp_apply, shifted_apply]

/-- The last stage: bias, rectifier, product with the classifier's weights, its bias, log-softmax of every row. -/
theorem output_eq (a : FVec Ideal S50000x96 .f32) (b : FVec Ideal S96 .f32) (W : FVec Ideal S96x4 .f32) (cc : FVec Ideal S4 .f32) :
    logSoftmaxRows (addf (Host.dotGeneral (F := Ideal) dot_S50000x96_S96x4_S50000x4_1_0_0_1_n_n none
        (maximumf (addf a (broadcastInDim S50000x96 ![0, 1] bcast_S1x96_S50000x96_0_1 (broadcastInDim S1x96 ![1] bcast_S96_S1x96_1 b)))
          (broadcastInDim S50000x96 ![] bcast_S_S50000x96 (constant (F := Ideal) S_ .f32 0x00000000#32))) W)
        (broadcastInDim S50000x4 ![0, 1] bcast_S1x4_S50000x4_0_1 (broadcastInDim S1x4 ![1] bcast_S4_S1x4_1 cc)))
      = Gcn.output (n := 50000) a b W cc := by
  funext i
  obtain ⟨p, q, rfl⟩ : ∃ (p : Fin 50000) (q : Fin 4), i = (ix2 p q : S50000x4.Idx) := ⟨i 0, i 1, eq_ix2 (n0 := 50000) (n1 := 4) i⟩
  rw [logSoftmaxRows_apply]
  unfold Gcn.output
  refine congrArg (fun z => Gcn.logSoftmax z q) (funext fun j => ?_)
  show Host.dotGeneral (F := Ideal) dot_S50000x96_S96x4_S50000x4_1_0_0_1_n_n none _ W (ix2 p j)
      + broadcastInDim S50000x4 ![0, 1] bcast_S1x4_S50000x4_0_1 (broadcastInDim S1x4 ![1] bcast_S4_S1x4_1 cc) (ix2 p j) = Gcn.scores a b W cc p j
  rw [dot4_apply, biasRows4_apply]
  unfold Gcn.scores
  exact congrArg (· + cc (ix1 j)) (congrArg₂ (Gcn.dot (K := 96)) (funext fun k => rectified_apply a b p k) rfl)

/-! ## The reference's result -/

/-- The reference's normalised neighbourhood sum is, operation for operation, the kernel program's. -/
theorem sum0_eq (x0 : FVec Ideal S50000x96 .f32) (x1 : (⟨S2x800000, .i32⟩ : BufTy).Contents (Elt Ideal)) (x2 : FVec Ideal S96x96 .f32) : val_main_v40 (F := Ideal) x0 x1 x2 = Gcn.neighbourSum x1 (val_main_v28 (F := Ideal) x0 x2) := rfl

theorem sum1_eq (x0 : FVec Ideal S50000x96 .f32) (x1 : (⟨S2x800000, .i32⟩ : BufTy).Contents (Elt Ideal)) (x2 : FVec Ideal S96x96 .f32) (x3 : FVec Ideal S96 .f32) (x4 : FVec Ideal S96x96 .f32) :
    val_main_v57 (F := Ideal) x0 x1 x2 x3 x4 = Gcn.neighbourSum x1 (val_main_v45 (F := Ideal) x0 x1 x2 x3 x4) := rfl
theorem sum2_eq (x0 : FVec Ideal S50000x96 .f32) (x1 : (⟨S2x800000, .i32⟩ : BufTy).Contents (Elt Ideal)) (x2 : FVec Ideal S96x96 .f32) (x3 : FVec Ideal S96 .f32) (x4 : FVec Ideal S96x96 .f32) (x5 : FVec Ideal S96 .f32) (x6 : FVec Ideal S96x96 .f32) :
    val_main_v74 (F := Ideal) x0 x1 x2 x3 x4 x5 x6 = Gcn.neighbourSum x1 (val_main_v62 (F := Ideal) x0 x1 x2 x3 x4 x5 x6) := rfl
theorem sum3_eq (x0 : FVec Ideal S50000x96 .f32) (x1 : (⟨S2x800000, .i32⟩ : BufTy).Contents (Elt Ideal)) (x2 : FVec Ideal S96x96 .f32) (x3 : FVec Ideal S96 .f32) (x4 : FVec Ideal S96x96 .f32) (x5 : FVec Ideal S96 .f32) (x6 : FVec Ideal S96x96 .f32) (x7 : FVec Ideal S96 .f32) (x8 : FVec Ideal S96x96 .f32) :
    val_main_v91 (F := Ideal) x0 x1 x2 x3 x4 x5 x6 x7 x8 = Gcn.neighbourSum x1 (val_main_v79 (F := Ideal) x0 x1 x2 x3 x4 x5 x6 x7 x8) := rfl

/-- THE REFERENCE'S RESULT: the network of its twelve arrays. -/
theorem value (x0 : FVec Ideal S50000x96 .f32) (x1 : (⟨S2x800000, .i32⟩ : BufTy).Contents (Elt Ideal)) (x2 : FVec Ideal S96x96 .f32) (x3 : FVec Ideal S96 .f32) (x4 : FVec Ideal S96x96 .f32) (x5 : FVec Ideal S96 .f32) (x6 : FVec Ideal S96x96 .f32) (x7 : FVec Ideal S96 .f32) (x8 : FVec Ideal S96x96 .f32) (x9 : FVec Ideal S96 .f32) (x10 : FVec Ideal S96x4 .f32) (x11 : FVec Ideal S4 .f32) :
    val_main_v100 (F := Ideal) x0 x1 x2 x3 x4 x5 x6 x7 x8 x9 x10 x11 = Gcn.network x0 x1 x2 x3 x4 x5 x6 x7 x8 x9 x10 x11 := by
  have h0 : val_main_v28 (F := Ideal) x0 x2 = Gcn.product (n := 50000) x0 x2 := product_eq x0 x2
  have h1 : val_main_v45 (F := Ideal) x0 x1 x2 x3 x4 = Gcn.hidden (n := 50000) (val_main_v40 (F := Ideal) x0 x1 x2) x3 x4 := hidden_eq _ x3 x4
  have h2 : val_main_v62 (F := Ideal) x0 x1 x2 x3 x4 x5 x6 = Gcn.hidden (n := 50000) (val_main_v57 (F := Ideal) x0 x1 x2 x3 x4) x5 x6 := hidden_eq _ x5 x6
  have h3 : val_main_v79 (F := Ideal) x0 x1 x2 x3 x4 x5 x6 x7 x8 = Gcn.hidden (n := 50000) (val_main_v74 (F := Ideal) x0 x1 x2 x3 x4 x5 x6) x7 x8 := hidden_eq _ x7 x8
  have h4 : val_main_v100 (F := Ideal) x0 x1 x2 x3 x4 x5 x6 x7 x8 x9 x10 x11 = Gcn.output (n := 50000) (val_main_v91 (F := Ideal) x0 x1 x2 x3 x4 x5 x6 x7 x8) x9 x10 x11 := output_eq _ x9 x10 x11
  rw [h4, sum3_eq, h3, sum2_eq, h2, sum1_eq, h1, sum0_eq, h0]
  rfl

end Cert.ReferenceIdeal.RefValue

end
-- ==== Proof.lean ====
/-
  A four-layer graph-convolution network with a classifier, computed two ways, ends in the same array.

  The kernel program tiles every dense stage over ten blocks of 5000 rows and keeps the gather, scale and scatter of
  the normalised neighbourhood sum between the stages on the host; the reference spells the dense stages over whole
  arrays. On the extended reals a narrowing to bf16 is the identity and a tile's product into a zero accumulator is a
  plain sum, so stage by stage and entry by entry both compute

    output (S (hidden (S (hidden (S (hidden (S (product x W0)) b0 W1)) b1 W2)) b2 W3)) b3 Wl bl

  (Proof/Network.lean), S the neighbourhood sum that both programs apply operation for operation. No rearrangement of a
  sum is involved, so the finiteness of the inputs is never used. The three frame claims are the programs' runs with
  the values dropped; the idealization rewrote nothing, so the fourth claim is trivial.
-/
import proofs.«168274_j26371099198062_1_alg».proof.Defs
import proofs.«168274_j26371099198062_1_alg».proof.Proof.Gen.Kernel
import proofs.«168274_j26371099198062_1_alg».proof.Proof.Gen.Kernel.Skeleton
import proofs.«168274_j26371099198062_1_alg».proof.Proof.Gen.Kernel.Launch
import proofs.«168274_j26371099198062_1_alg».proof.Proof.Gen.Kernel.Points
import proofs.«168274_j26371099198062_1_alg».proof.Proof.Gen.Kernel.Frame
import proofs.«168274_j26371099198062_1_alg».proof.Proof.Gen.KernelIdeal
import proofs.«168274_j26371099198062_1_alg».proof.Proof.Gen.KernelIdeal.Skeleton
import proofs.«168274_j26371099198062_1_alg».proof.Proof.Gen.KernelIdeal.Launch
import proofs.«168274_j26371099198062_1_alg».proof.Proof.Gen.KernelIdeal.Points
import proofs.«168274_j26371099198062_1_alg».proof.Proof.Gen.KernelIdeal.Frame
import proofs.«168274_j26371099198062_1_alg».proof.Proof.Gen.ReferenceIdeal
import proofs.«168274_j26371099198062_1_alg».proof.Proof.Gen.Pre_finite_inputs
import proofs.«168274_j26371099198062_1_alg».proof.Proof.KernelRun
import proofs.«168274_j26371099198062_1_alg».proof.Proof.KernelValue
import proofs.«168274_j26371099198062_1_alg».proof.Proof.RefRun
import proofs.«168274_j26371099198062_1_alg».proof.Proof.RefRead
import proofs.«168274_j26371099198062_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_ideal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2) (Cert.ReferenceIdeal.ValueP.run (F := Ideal) m ρ)

/-- From memories agreeing on the twelve arrays both programs end with the network of those arrays in their result
    buffers: the kernel program by its chain of stages, the reference by its stages read entry by entry. -/
theorem algebraic : Cert.algebraic_KernelIdeal_ReferenceIdeal := by
  intro m ρ m' ρ' _ hagree
  refine ⟨fun c => Cert.Gcn.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono (fun r h c => ⟨(h c).1.trans (Cert.KernelIdeal.Chain.result m ρ c), (h c).2⟩)
      (Cert.KernelIdeal.Valued.run (F := Ideal) m ρ)
  · refine (θ_run Cert.ReferenceIdeal.defs _ _).mono (fun r h c => ⟨?_, (h c).2⟩) (Cert.ReferenceIdeal.ValueP.run (F := Ideal) m' ρ')
    obtain ⟨a0, a1, a2, a3, a4, a5, a6, a7, a8, a9, a10, a11⟩ := hagree c
    rw [(h c).1, Cert.ReferenceIdeal.ReadP.val_main_v100_eq, Cert.ReferenceIdeal.RefValue.value, a0, a1, a2, a3, a4, a5, a6, a7, a8, a9, a10, a11]

theorem claim : Cert.Claim := ⟨Cert.Kernel.Gen.facts, Cert.KernelIdeal.Gen.facts, Cert.ReferenceIdeal.Gen.facts, Cert.Pre_finite_inputs.Gen.facts,
  frame_kernel, frame_ideal, frame_reference, trivial, algebraic⟩

end Cert.Proof

end
